-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S8x4 .f32) (main_arg9 : FVec F S4 .f32) (main_v33 : IVec S_ 1) : IVec S_ 1 :=
  let main_v34 : FVec F S8x4 .f32 := Host.absf main_arg8
  let main_cst_12 : FVec F S_ .f32 := constant S_ .f32 0x7F800000#32
  let main_v35 : FVec F S8x4 .f32 := broadcastInDim S8x4 ![] bcast_S_S8x4 main_cst_12
  let main_v36 : IVec S8x4 1 := cmpf .olt main_v34 main_v35
  let main_c_13 : IVec S_ 1 := constantI S_ 1 1#1
  let main_v37 : IVec S_ 1 := (fun x v => Host.reduce IntOp.andi x v reducesTo_S8x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S16 .f32) (main_arg6 : FVec F S16x8 .f32) (main_arg7 : FVec F S8 .f32) (main_arg8 : FVec F S8x4 .f32) (main_arg9 : FVec F S4 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg6
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S200000x256 .f32) (main_arg1 : IVec S2x3200000 32) (main_arg2 : FVec F S256x32 .f32) (main_arg3 : FVec F S32 .f32) (main_arg4 : FVec F S32x16 .f32) (main_arg5 : FVec F S16 .f32) (main_arg6 : FVec F S16x8 .f32) (main_arg7 : FVec F S8 .f32) (main_arg8 : FVec F S8x4 .f32) (main_arg9 : FVec F S4 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_arg8 main_arg9 main_v13 main_v16
-- ==== Kernel.lean ====
abbrev S200000x256 : Shape := ⟨2, ![200000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S1x32 : Shape := ⟨2, ![1, 32]⟩
abbrev S200000x32 : Shape := ⟨2, ![200000, 32]⟩
abbrev S8000x256 : Shape := ⟨2, ![8000, 256]⟩
abbrev S8000x32 : Shape := ⟨2, ![8000, 32]⟩
abbrev S3200000x32 : Shape := ⟨2, ![3200000, 32]⟩
abbrev S200000x1 : Shape := ⟨2, ![200000, 1]⟩
abbrev S8000x1 : Shape := ⟨2, ![8000, 1]⟩
abbrev S1x16 : Shape := ⟨2, ![1, 16]⟩
abbrev S200000x16 : Shape := ⟨2, ![200000, 16]⟩
abbrev S8000x16 : Shape := ⟨2, ![8000, 16]⟩
abbrev S3200000x16 : Shape := ⟨2, ![3200000, 16]⟩
abbrev S1x8 : Shape := ⟨2, ![1, 8]⟩
abbrev S200000x8 : Shape := ⟨2, ![200000, 8]⟩
abbrev S8000x8 : Shape := ⟨2, ![8000, 8]⟩
abbrev S3200000x8 : Shape := ⟨2, ![3200000, 8]⟩
abbrev S1x4 : Shape := ⟨2, ![1, 4]⟩
abbrev S200000x4 : Shape := ⟨2, ![200000, 4]⟩
abbrev S8000x4 : Shape := ⟨2, ![8000, 4]⟩

abbrev nBuf : Space → Nat
  | .hbm => 115
  | .vmem => 51
  | .smem => 0
  | _ => 0

abbrev bufTy : (tb : Table) → Fin (tcTables nBuf tb) → BufTy
  | .hbm, ⟨0, _⟩ => ⟨S200000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S8x4, .f32⟩
  | .hbm, ⟨9, _⟩ => ⟨S4, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S200000, .f32⟩
  | .hbm, ⟨18, _⟩ => ⟨S3200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S200000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S_, .f32⟩
  | .hbm, ⟨45, _⟩ => ⟨S32, .f32⟩
  | .hbm, ⟨46, _⟩ => ⟨S1x32, .f32⟩
  | .hbm, ⟨47, _⟩ => ⟨S200000x32, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x32, .f32⟩
  | .hbm, ⟨57, _⟩ => ⟨S3200000x1, .f32⟩
  | .hbm, ⟨58, _⟩ => ⟨S3200000x32, .f32⟩
  | .hbm, ⟨59, _⟩ => ⟨S3200000x32, .f32⟩
  | .hbm, ⟨60, _⟩ => ⟨S_, .f32⟩
  | .hbm, ⟨61, _⟩ => ⟨S200000x32, .f32⟩
  | .hbm, ⟨62, _⟩ => ⟨S3200000x1, .i32⟩
  | .hbm, ⟨63, _⟩ => ⟨S200000x32, .f32⟩
  | .hbm, ⟨64, _⟩ => ⟨S1x32, .f32⟩
  | .hbm, ⟨65, _⟩ => ⟨S200000x1, .f32⟩
  | .hbm, ⟨66, _⟩ => ⟨S200000x32, .f32⟩
  | .hbm, ⟨67, _⟩ => ⟨S_, .f32⟩
  | .hbm, ⟨68, _⟩ => ⟨S16, .f32⟩
  | .hbm, ⟨69, _⟩ => ⟨S1x16, .f32⟩
  | .hbm, ⟨70, _⟩ => ⟨S200000x16, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000x16, .f32⟩
  | .hbm, ⟨80, _⟩ => ⟨S3200000x1, .f32⟩
  | .hbm, ⟨81, _⟩ => ⟨S3200000x16, .f32⟩
  | .hbm, ⟨82, _⟩ => ⟨S3200000x16, .f32⟩
  | .hbm, ⟨83, _⟩ => ⟨S_, .f32⟩
  | .hbm, ⟨84, _⟩ => ⟨S200000x16, .f32⟩
  | .hbm, ⟨85, _⟩ => ⟨S3200000x1, .i32⟩
  | .hbm, ⟨86, _⟩ => ⟨S200000x16, .f32⟩
  | .hbm, ⟨87, _⟩ => ⟨S1x16, .f32⟩
  | .hbm, ⟨88, _⟩ => ⟨S200000x1, .f32⟩
  | .hbm, ⟨89, _⟩ => ⟨S200000x16, .f32⟩
  | .hbm, ⟨90, _⟩ => ⟨S_, .f32⟩
  | .hbm, ⟨91, _⟩ => ⟨S8, .f32⟩
  | .hbm, ⟨92, _⟩ => ⟨S1x8, .f32⟩
  | .hbm, ⟨93, _⟩ => ⟨S200000x8, .f32⟩
  | .hbm, ⟨94, _⟩ => ⟨S_, .i32⟩
  | .hbm, ⟨95, _⟩ => ⟨S3200000, .i32⟩
  | .hbm, ⟨96, _⟩ => ⟨S3200000, .i1⟩
  | .hbm, ⟨97, _⟩ => ⟨S_, .i32⟩
  | .hbm, ⟨98, _⟩ => ⟨S3200000, .i32⟩
  | .hbm, ⟨99, _⟩ => ⟨S3200000, .i32⟩
  | .hbm, ⟨100, _⟩ => ⟨S3200000, .i32⟩
  | .hbm, ⟨101, _⟩ => ⟨S3200000x1, .i32⟩
  | .hbm, ⟨102, _⟩ => ⟨S3200000x8, .f32⟩
  | .hbm, ⟨103, _⟩ => ⟨S3200000x1, .f32⟩
  | .hbm, ⟨104, _⟩ => ⟨S3200000x8, .f32⟩
  | .hbm, ⟨105, _⟩ => ⟨S3200000x8, .f32⟩
  | .hbm, ⟨106, _⟩ => ⟨S_, .f32⟩
  | .hbm, ⟨107, _⟩ => ⟨S200000x8, .f32⟩
  | .hbm, ⟨108, _⟩ => ⟨S3200000x1, .i32⟩
  | .hbm, ⟨109, _⟩ => ⟨S200000x8, .f32⟩
  | .hbm, ⟨110, _⟩ => ⟨S1x8, .f32⟩
  | .hbm, ⟨111, _⟩ => ⟨S200000x1, .f32⟩
  | .hbm, ⟨112, _⟩ => ⟨S200000x8, .f32⟩
  | .hbm, ⟨113, _⟩ => ⟨S1x4, .f32⟩
  | .hbm, ⟨114, _⟩ => ⟨S200000x4, .f32⟩
  | .local _ .vmem, ⟨0, _⟩ => ⟨S8000x256, .f32⟩
  | .local _ .vmem, ⟨1, _⟩ => ⟨S8000x256, .f32⟩
  | .local _ .vmem, ⟨2, _⟩ => ⟨S256x32, .f32⟩
  | .local _ .vmem, ⟨3, _⟩ => ⟨S1x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S8000x1, .f32⟩
  | .local _ .vmem, ⟨11, _⟩ => ⟨S8000x1, .f32⟩
  | .local _ .vmem, ⟨12, _⟩ => ⟨S1x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S32x16, .f32⟩
  | .local _ .vmem, ⟨18, _⟩ => ⟨S1x16, .f32⟩
  | .local _ .vmem, ⟨19, _⟩ => ⟨S8000x16, .f32⟩
  | .local _ .vmem, ⟨20, _⟩ => ⟨S8000x16, .f32⟩
  | .local _ .vmem, ⟨21, _⟩ => ⟨S8000x16, .f32⟩
  | .local _ .vmem, ⟨22, _⟩ => ⟨S8000x16, .f32⟩
  | .local _ .vmem, ⟨23, _⟩ => ⟨S8000x16, .f32⟩
  | .local _ .vmem, ⟨24, _⟩ => ⟨S8000x16, .f32⟩
  | .local _ .vmem, ⟨25, _⟩ => ⟨S8000x1, .f32⟩
  | .local _ .vmem, ⟨26, _⟩ => ⟨S8000x1, .f32⟩
  | .local _ .vmem, ⟨27, _⟩ => ⟨S1x16, .f32⟩
  | .local _ .vmem, ⟨28, _⟩ => ⟨S8000x16, .f32⟩
  | .local _ .vmem, ⟨29, _⟩ => ⟨S8000x16, .f32⟩
  | .local _ .vmem, ⟨30, _⟩ => ⟨S8000x16, .f32⟩
  | .local _ .vmem, ⟨31, _⟩ => ⟨S8000x16, .f32⟩
  | .local _ .vmem, ⟨32, _⟩ => ⟨S16x8, .f32⟩
  | .local _ .vmem, ⟨33, _⟩ => ⟨S1x8, .f32⟩
  | .local _ .vmem, ⟨34, _⟩ => ⟨S8000x8, .f32⟩
  | .local _ .vmem, ⟨35, _⟩ => ⟨S8000x8, .f32⟩
  | .local _ .vmem, ⟨36, _⟩ => ⟨S8000x8, .f32⟩
  | .local _ .vmem, ⟨37, _⟩ => ⟨S8000x8, .f32⟩
  | .local _ .vmem, ⟨38, _⟩ => ⟨S8000x8, .f32⟩
  | .local _ .vmem, ⟨39, _⟩ => ⟨S8000x8, .f32⟩
  | .local _ .vmem, ⟨40, _⟩ => ⟨S8000x1, .f32⟩
  | .local _ .vmem, ⟨41, _⟩ => ⟨S8000x1, .f32⟩
  | .local _ .vmem, ⟨42, _⟩ => ⟨S1x8, .f32⟩
  | .local _ .vmem, ⟨43, _⟩ => ⟨S8000x8, .f32⟩
  | .local _ .vmem, ⟨44, _⟩ => ⟨S8000x8, .f32⟩
  | .local _ .vmem, ⟨45, _⟩ => ⟨S8000x8, .f32⟩
  | .local _ .vmem, ⟨46, _⟩ => ⟨S8000x8, .f32⟩
  | .local _ .vmem, ⟨47, _⟩ => ⟨S8x4, .f32⟩
  | .local _ .vmem, ⟨48, _⟩ => ⟨S1x4, .f32⟩
  | .local _ .vmem, ⟨49, _⟩ => ⟨S8000x4, .f32⟩
  | .local _ .vmem, ⟨50, _⟩ => ⟨S8000x4, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x8 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8000x8 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S_S32 : S_.BroadcastsInDim S32 (![] : Fin 0 → Fin S32.rank)
  shapeCasts_S32_S1x32 : S32.ShapeCasts S1x32
  inb_S8000x256_S8000x256_0_0 : ∀ a, (![0, 0] : Fin 2 → Nat) a + S8000x256.size a ≤ S8000x256.size a
  h_S8000x256 : 0 < S8000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  shapeCasts_S200000_S200000x1 : S200000.ShapeCasts S200000x1
  shapeCasts_S8000x32_S8000x32 : S8000x32.ShapeCasts S8000x32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  bcast_S_S16 : S_.BroadcastsInDim S16 (![] : Fin 0 → Fin S16.rank)
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  bcast_S3200000x1_S3200000x16_0_1 : S3200000x1.BroadcastsInDim S3200000x16 (![0, 1] : Fin 2 → Fin S3200000x16.rank)
  bcast_S_S200000x16 : S_.BroadcastsInDim S200000x16 (![] : Fin 0 → Fin S200000x16.rank)
  shapeCasts_S8000x16_S8000x16 : S8000x16.ShapeCasts S8000x16
  broadcasts_S8000x1_S8000x16 : S8000x1.Broadcasts S8000x16
  bcast_S_S8 : S_.BroadcastsInDim S8 (![] : Fin 0 → Fin S8.rank)
  shapeCasts_S8_S1x8 : S8.ShapeCasts S1x8
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8000x8_S8000x8_0_0 : ∀ a, (![0, 0] : Fin 2 → Nat) a + S8000x8.size a ≤ S8000x8.size a
  h_S8000x8 : 0 < S8000x8.numel
  bcast_S3200000x1_S3200000x8_0_1 : S3200000x1.BroadcastsInDim S3200000x8 (![0, 1] : Fin 2 → Fin S3200000x8.rank)
  bcast_S_S200000x8 : S_.BroadcastsInDim S200000x8 (![] : Fin 0 → Fin S200000x8.rank)
  shapeCasts_S8000x8_S8000x8 : S8000x8.ShapeCasts S8000x8
  broadcasts_S8000x1_S8000x8 : S8000x1.Broadcasts S8000x8
  shapeCasts_S4_S1x4 : S4.ShapeCasts S1x4
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  inb_S8000x4_S8000x4_0_0 : ∀ a, (![0, 0] : Fin 2 → Nat) a + S8000x4.size a ≤ S8000x4.size a
  h_S8000x4 : 0 < S8000x4.numel
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S8000x256_S256x32_S8000x32_1_0_0_1_n_n_wf : DotDims.WF S8000x256 S256x32 S8000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S8000x32_S32x16_S8000x16_1_0_0_1_n_n_wf : DotDims.WF S8000x32 S32x16 S8000x16 [1] [0] [0] [1] [] []
  gather_S200000x16_S3200000x1_S3200000x16_1_0_n_n_0_1_116_wf : GatherDims.WF S200000x16 S3200000x1 S3200000x16 [1] [0] [] [0] [] 1 ![1, 16]
  scatter_S200000x16_S3200000x1_S3200000x16_1_0_0_1_wf : ScatterDims.WF S200000x16 S3200000x1 S3200000x16 [1] [0] [0] 1
  dot_S8000x16_S16x8_S8000x8_1_0_0_1_n_n_wf : DotDims.WF S8000x16 S16x8 S8000x8 [1] [0] [0] [1] [] []
  gather_S200000x8_S3200000x1_S3200000x8_1_0_n_n_0_1_18_wf : GatherDims.WF S200000x8 S3200000x1 S3200000x8 [1] [0] [] [0] [] 1 ![1, 8]
  scatter_S200000x8_S3200000x1_S3200000x8_1_0_0_1_wf : ScatterDims.WF S200000x8 S3200000x1 S3200000x8 [1] [0] [0] 1
  dot_S8000x8_S8x4_S8000x4_1_0_0_1_n_n_wf : DotDims.WF S8000x8 S8x4 S8000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S200000x256.size a
  hwx0_0 : ∀ i : grid0.Coords, EltTy.bits .f32 = 32 ∨ (Rect.block (s := S200000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S200000x32.size a
  hwx0_3 : ∀ i : grid0.Coords, EltTy.bits .f32 = 32 ∨ (Rect.block (s := S200000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S200000x32.size a
  hwx1_0 : ∀ i : grid1.Coords, EltTy.bits .f32 = 32 ∨ (Rect.block (s := S200000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S200000x32.size a
  hwx1_1 : ∀ i : grid1.Coords, EltTy.bits .f32 = 32 ∨ (Rect.block (s := S200000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x32.size a ≤ S200000x32.size a
  hwx1_4 : ∀ i : grid1.Coords, EltTy.bits .f32 = 32 ∨ (Rect.block (s := S200000x32) S8000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S200000x32.size a
  hwx2_0 : ∀ i : grid2.Coords, EltTy.bits .f32 = 32 ∨ (Rect.block (s := S200000x32) S8000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x16.size a ≤ S200000x16.size a
  hwx2_3 : ∀ i : grid2.Coords, EltTy.bits .f32 = 32 ∨ (Rect.block (s := S200000x16) S8000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S200000x16.size a
  hwx3_0 : ∀ i : grid3.Coords, EltTy.bits .f32 = 32 ∨ (Rect.block (s := S200000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S200000x16.size a
  hwx3_1 : ∀ i : grid3.Coords, EltTy.bits .f32 = 32 ∨ (Rect.block (s := S200000x16) S8000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x16.size a ≤ S200000x16.size a
  hwx3_4 : ∀ i : grid3.Coords, EltTy.bits .f32 = 32 ∨ (Rect.block (s := S200000x16) S8000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S200000x16.size a
  hwx4_0 : ∀ i : grid4.Coords, EltTy.bits .f32 = 32 ∨ (Rect.block (s := S200000x16) S8000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x8.size a ≤ S16x8.size a
  hwx4_1 : ∀ i : grid4.Coords, EltTy.bits .f32 = 32 ∨ (Rect.block (s := S16x8) S16x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x8.size a ≤ S200000x8.size a
  hwx4_3 : ∀ i : grid4.Coords, EltTy.bits .f32 = 32 ∨ (Rect.block (s := S200000x8) S8000x8.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x8.size a ≤ S200000x8.size a
  hwx5_0 : ∀ i : grid5.Coords, EltTy.bits .f32 = 32 ∨ (Rect.block (s := S200000x8) S8000x8.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x8.size a ≤ S200000x8.size a
  hwx5_1 : ∀ i : grid5.Coords, EltTy.bits .f32 = 32 ∨ (Rect.block (s := S200000x8) S8000x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S200000x1.size a
  hwx5_2 : ∀ i : grid5.Coords, EltTy.bits .f32 = 32 ∨ (Rect.block (s := S200000x1) S8000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x8.size a ≤ S1x8.size a
  hwx5_3 : ∀ i : grid5.Coords, EltTy.bits .f32 = 32 ∨ (Rect.block (s := S1x8) S1x8.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x8.size a ≤ S200000x8.size a
  hwx5_4 : ∀ i : grid5.Coords, EltTy.bits .f32 = 32 ∨ (Rect.block (s := S200000x8) S8000x8.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x8.size a ≤ S200000x8.size a
  hwx6_0 : ∀ i : grid6.Coords, EltTy.bits .f32 = 32 ∨ (Rect.block (s := S200000x8) S8000x8.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x4.size a ≤ S8x4.size a
  hwx6_1 : ∀ i : grid6.Coords, EltTy.bits .f32 = 32 ∨ (Rect.block (s := S8x4) S8x4.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x4.size a ≤ S1x4.size a
  hwx6_2 : ∀ i : grid6.Coords, EltTy.bits .f32 = 32 ∨ (Rect.block (s := S1x4) S1x4.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x4.size a ≤ S200000x4.size a
  hwx6_3 : ∀ i : grid6.Coords, EltTy.bits .f32 = 32 ∨ (Rect.block (s := S200000x4) S8000x4.size (cc6_transform_3 i) (hinb6_3 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S8000x256_S256x32_S8000x32_1_0_0_1_n_n : DotDims S8000x256 S256x32 S8000x32 where
  lhsContracting := [1]
  rhsContracting := [0]
  lhsNonContracting := [0]
  rhsNonContracting := [1]
  lhsBatch := []
  rhsBatch := []
  wf := dot_S8000x256_S256x32_S8000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def gather_S200000x16_S3200000x1_S3200000x16_1_0_n_n_0_1_116 : GatherDims S200000x16 S3200000x1 S3200000x16 where
  offsetDims := [1]
  collapsedSliceDims := [0]
  operandBatchingDims := []
  startIndicesBatchingDims := []
  startIndexMap := [0]
  indexVectorDim := 1
  sliceSizes := ![1, 16]
  wf := gather_S200000x16_S3200000x1_S3200000x16_1_0_n_n_0_1_116_wf
def scatter_S200000x16_S3200000x1_S3200000x16_1_0_0_1 : ScatterDims S200000x16 S3200000x1 S3200000x16 where
  updateWindowDims := [1]
  insertedWindowDims := [0]
  scatterDimsToOperandDims := [0]
  indexVectorDim := 1
  wf := scatter_S200000x16_S3200000x1_S3200000x16_1_0_0_1_wf
def dot_S8000x16_S16x8_S8000x8_1_0_0_1_n_n : DotDims S8000x16 S16x8 S8000x8 where
  lhsContracting := [1]
  rhsContracting := [0]
  lhsNonContracting := [0]
  rhsNonContracting := [1]
  lhsBatch := []
  rhsBatch := []
  wf := dot_S8000x16_S16x8_S8000x8_1_0_0_1_n_n_wf
def gather_S200000x8_S3200000x1_S3200000x8_1_0_n_n_0_1_18 : GatherDims S200000x8 S3200000x1 S3200000x8 where
  offsetDims := [1]
  collapsedSliceDims := [0]
  operandBatchingDims := []
  startIndicesBatchingDims := []
  startIndexMap := [0]
  indexVectorDim := 1
  sliceSizes := ![1, 8]
  wf := gather_S200000x8_S3200000x1_S3200000x8_1_0_n_n_0_1_18_wf
def scatter_S200000x8_S3200000x1_S3200000x8_1_0_0_1 : ScatterDims S200000x8 S3200000x1 S3200000x8 where
  updateWindowDims := [1]
  insertedWindowDims := [0]
  scatterDimsToOperandDims := [0]
  indexVectorDim := 1
  wf := scatter_S200000x8_S3200000x1_S3200000x8_1_0_0_1_wf
def dot_S8000x8_S8x4_S8000x4_1_0_0_1_n_n : DotDims S8000x8 S8x4 S8000x4 where
  lhsContracting := [1]
  rhsContracting := [0]
  lhsNonContracting := [0]
  rhsNonContracting := [1]
  lhsBatch := []
  rhsBatch := []
  wf := dot_S8000x8_S8x4_S8000x4_1_0_0_1_n_n_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S8000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S8000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S8000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S8000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S8000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S8000x8.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S8000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S8000x8.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v83) S8000x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S8x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x4.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S8000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S200000x256 : Shape := ⟨2, ![200000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S200000x32 : Shape := ⟨2, ![200000, 32]⟩
abbrev S3200000x32 : Shape := ⟨2, ![3200000, 32]⟩
abbrev S200000x1 : Shape := ⟨2, ![200000, 1]⟩
abbrev S1x32 : Shape := ⟨2, ![1, 32]⟩
abbrev S200000x16 : Shape := ⟨2, ![200000, 16]⟩
abbrev S3200000x16 : Shape := ⟨2, ![3200000, 16]⟩
abbrev S1x16 : Shape := ⟨2, ![1, 16]⟩
abbrev S200000x8 : Shape := ⟨2, ![200000, 8]⟩
abbrev S3200000x8 : Shape := ⟨2, ![3200000, 8]⟩
abbrev S1x8 : Shape := ⟨2, ![1, 8]⟩
abbrev S200000x4 : Shape := ⟨2, ![200000, 4]⟩
abbrev S1x4 : Shape := ⟨2, ![1, 4]⟩

abbrev nBuf : Space → Nat
  | .hbm => 163
  | .vmem => 0
  | .smem => 0
  | _ => 0

abbrev hbmTy0_0 (i : Nat) : BufTy := match i % 128 with
  | 0 => ⟨S200000x256, .f32⟩
  | 1 => ⟨S2x3200000, .i32⟩
  | 2 => ⟨S256x32, .f32⟩
  | 3 => ⟨S32, .f32⟩
  | 4 => ⟨S32x16, .f32⟩
  | 5 => ⟨S16, .f32⟩
  | 6 => ⟨S16x8, .f32⟩
  | 7 => ⟨S8, .f32⟩
  | 8 => ⟨S8x4, .f32⟩
  | 9 => ⟨S4, .f32⟩
  | 10 => ⟨S1x3200000, .i32⟩
  | 11 => ⟨S3200000, .i32⟩
  | 12 => ⟨S1x3200000, .i32⟩
  | 13 => ⟨S3200000, .i32⟩
  | 14 => ⟨S_, .f32⟩
  | 15 => ⟨S3200000, .f32⟩
  | 16 => ⟨S_, .f32⟩
  | 17 => ⟨S200000, .f32⟩
  | 18 => ⟨S3200000x1, .i32⟩
  | 19 => ⟨S200000, .f32⟩
  | 20 => ⟨S_, .f32⟩
  | 21 => ⟨S200000, .f32⟩
  | 22 => ⟨S200000, .f32⟩
  | 23 => ⟨S200000, .f32⟩
  | 24 => ⟨S200000x32, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x32, .f32⟩
  | 53 => ⟨S3200000x1, .f32⟩
  | 54 => ⟨S3200000x32, .f32⟩
  | 55 => ⟨S3200000x32, .f32⟩
  | 56 => ⟨S_, .f32⟩
  | 57 => ⟨S200000x32, .f32⟩
  | 58 => ⟨S3200000x1, .i32⟩
  | 59 => ⟨S200000x32, .f32⟩
  | 60 => ⟨S200000, .f32⟩
  | 61 => ⟨S200000x1, .f32⟩
  | 62 => ⟨S200000x32, .f32⟩
  | 63 => ⟨S200000x32, .f32⟩
  | 64 => ⟨S200000x32, .f32⟩
  | 65 => ⟨S1x32, .f32⟩
  | 66 => ⟨S200000x32, .f32⟩
  | 67 => ⟨S200000x32, .f32⟩
  | 68 => ⟨S200000x32, .f32⟩
  | 69 => ⟨S200000x16, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x16, .f32⟩
  | 98 => ⟨S3200000x1, .f32⟩
  | 99 => ⟨S3200000x16, .f32⟩
  | 100 => ⟨S3200000x16, .f32⟩
  | 101 => ⟨S_, .f32⟩
  | 102 => ⟨S200000x16, .f32⟩
  | 103 => ⟨S3200000x1, .i32⟩
  | 104 => ⟨S200000x16, .f32⟩
  | 105 => ⟨S200000, .f32⟩
  | 106 => ⟨S200000x1, .f32⟩
  | 107 => ⟨S200000x16, .f32⟩
  | 108 => ⟨S200000x16, .f32⟩
  | 109 => ⟨S200000x16, .f32⟩
  | 110 => ⟨S1x16, .f32⟩
  | 111 => ⟨S200000x16, .f32⟩
  | 112 => ⟨S200000x16, .f32⟩
  | 113 => ⟨S200000x16, .f32⟩
  | 114 => ⟨S200000x8, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000, .f32⟩
  | 124 => ⟨S_, .i32⟩
  | 125 => ⟨S3200000, .i32⟩
  | 126 => ⟨S3200000, .i1⟩
  | 127 => ⟨S_, .i32⟩
  | _ => ⟨S200000x256, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000, .f32⟩
  | 5 => ⟨S3200000, .f32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S3200000x8, .f32⟩
  | 15 => ⟨S3200000x1, .f32⟩
  | 16 => ⟨S3200000x8, .f32⟩
  | 17 => ⟨S3200000x8, .f32⟩
  | 18 => ⟨S_, .f32⟩
  | 19 => ⟨S200000x8, .f32⟩
  | 20 => ⟨S3200000x1, .i32⟩
  | 21 => ⟨S200000x8, .f32⟩
  | 22 => ⟨S200000, .f32⟩
  | 23 => ⟨S200000x1, .f32⟩
  | 24 => ⟨S200000x8, .f32⟩
  | 25 => ⟨S200000x8, .f32⟩
  | 26 => ⟨S200000x8, .f32⟩
  | 27 => ⟨S1x8, .f32⟩
  | 28 => ⟨S200000x8, .f32⟩
  | 29 => ⟨S200000x8, .f32⟩
  | 30 => ⟨S200000x8, .f32⟩
  | 31 => ⟨S200000x4, .f32⟩
  | 32 => ⟨S1x4, .f32⟩
  | 33 => ⟨S200000x4, .f32⟩
  | 34 => ⟨S200000x4, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_15 : Ref sig .tc := ⟨.hbm, 115, rfl⟩
abbrev main_v88 : Ref sig .tc := ⟨.hbm, 116, rfl⟩
abbrev main_v89 : Ref sig .tc := ⟨.hbm, 117, rfl⟩
abbrev main_c_16 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_17 : Ref sig .tc := ⟨.hbm, 124, rfl⟩
abbrev main_v95 : Ref sig .tc := ⟨.hbm, 125, rfl⟩
abbrev main_v96 : Ref sig .tc := ⟨.hbm, 126, rfl⟩
abbrev main_c_18 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_19 : Ref sig .tc := ⟨.hbm, 134, rfl⟩
abbrev main_v103 : Ref sig .tc := ⟨.hbm, 135, rfl⟩
abbrev main_v104 : Ref sig .tc := ⟨.hbm, 136, rfl⟩
abbrev main_c_20 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_21 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S3200000x1_S3200000x16_0_1 : S3200000x1.BroadcastsInDim S3200000x16 (![0, 1] : Fin 2 → Fin S3200000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S3200000x1_S3200000x8_0_1 : S3200000x1.BroadcastsInDim S3200000x8 (![0, 1] : Fin 2 → Fin S3200000x8.rank)
  bcast_S_S200000x8 : S_.BroadcastsInDim S200000x8 (![] : Fin 0 → Fin S200000x8.rank)
  bcast_S200000x1_S200000x8_0_1 : S200000x1.BroadcastsInDim S200000x8 (![0, 1] : Fin 2 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S4_S1x4_1 : S4.BroadcastsInDim S1x4 (![1] : Fin 1 → Fin S1x4.rank)
  bcast_S1x4_S200000x4_0_1 : S1x4.BroadcastsInDim S200000x4 (![0, 1] : Fin 2 → Fin S200000x4.rank)
  scatter_S200000_S3200000x1_S3200000_n_0_0_1_wf : ScatterDims.WF S200000 S3200000x1 S3200000 [] [0] [0] 1
  dot_S200000x256_S256x32_S200000x32_1_0_0_1_n_n_wf : DotDims.WF S200000x256 S256x32 S200000x32 [1] [0] [0] [1] [] []
  gather_S200000_S3200000x1_S3200000_n_0_n_n_0_1_1_wf : GatherDims.WF S200000 S3200000x1 S3200000 [] [0] [] [0] [] 1 ![1]
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S200000x32_S32x16_S200000x16_1_0_0_1_n_n_wf : DotDims.WF S200000x32 S32x16 S200000x16 [1] [0] [0] [1] [] []
  gather_S200000x16_S3200000x1_S3200000x16_1_0_n_n_0_1_116_wf : GatherDims.WF S200000x16 S3200000x1 S3200000x16 [1] [0] [] [0] [] 1 ![1, 16]
  scatter_S200000x16_S3200000x1_S3200000x16_1_0_0_1_wf : ScatterDims.WF S200000x16 S3200000x1 S3200000x16 [1] [0] [0] 1
  dot_S200000x16_S16x8_S200000x8_1_0_0_1_n_n_wf : DotDims.WF S200000x16 S16x8 S200000x8 [1] [0] [0] [1] [] []
  gather_S200000x8_S3200000x1_S3200000x8_1_0_n_n_0_1_18_wf : GatherDims.WF S200000x8 S3200000x1 S3200000x8 [1] [0] [] [0] [] 1 ![1, 8]
  scatter_S200000x8_S3200000x1_S3200000x8_1_0_0_1_wf : ScatterDims.WF S200000x8 S3200000x1 S3200000x8 [1] [0] [0] 1
  dot_S200000x8_S8x4_S200000x4_1_0_0_1_n_n_wf : DotDims.WF S200000x8 S8x4 S200000x4 [1] [0] [0] [1] [] []

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x256_S256x32_S200000x32_1_0_0_1_n_n : DotDims S200000x256 S256x32 S200000x32 where
  lhsContracting := [1]
  rhsContracting := [0]
  lhsNonContracting := [0]
  rhsNonContracting := [1]
  lhsBatch := []
  rhsBatch := []
  wf := dot_S200000x256_S256x32_S200000x32_1_0_0_1_n_n_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf
def gather_S200000x16_S3200000x1_S3200000x16_1_0_n_n_0_1_116 : GatherDims S200000x16 S3200000x1 S3200000x16 where
  offsetDims := [1]
  collapsedSliceDims := [0]
  operandBatchingDims := []
  startIndicesBatchingDims := []
  startIndexMap := [0]
  indexVectorDim := 1
  sliceSizes := ![1, 16]
  wf := gather_S200000x16_S3200000x1_S3200000x16_1_0_n_n_0_1_116_wf
def scatter_S200000x16_S3200000x1_S3200000x16_1_0_0_1 : ScatterDims S200000x16 S3200000x1 S3200000x16 where
  updateWindowDims := [1]
  insertedWindowDims := [0]
  scatterDimsToOperandDims := [0]
  indexVectorDim := 1
  wf := scatter_S200000x16_S3200000x1_S3200000x16_1_0_0_1_wf
def dot_S200000x16_S16x8_S200000x8_1_0_0_1_n_n : DotDims S200000x16 S16x8 S200000x8 where
  lhsContracting := [1]
  rhsContracting := [0]
  lhsNonContracting := [0]
  rhsNonContracting := [1]
  lhsBatch := []
  rhsBatch := []
  wf := dot_S200000x16_S16x8_S200000x8_1_0_0_1_n_n_wf
def gather_S200000x8_S3200000x1_S3200000x8_1_0_n_n_0_1_18 : GatherDims S200000x8 S3200000x1 S3200000x8 where
  offsetDims := [1]
  collapsedSliceDims := [0]
  operandBatchingDims := []
  startIndicesBatchingDims := []
  startIndexMap := [0]
  indexVectorDim := 1
  sliceSizes := ![1, 8]
  wf := gather_S200000x8_S3200000x1_S3200000x8_1_0_n_n_0_1_18_wf
def scatter_S200000x8_S3200000x1_S3200000x8_1_0_0_1 : ScatterDims S200000x8 S3200000x1 S3200000x8 where
  updateWindowDims := [1]
  insertedWindowDims := [0]
  scatterDimsToOperandDims := [0]
  indexVectorDim := 1
  wf := scatter_S200000x8_S3200000x1_S3200000x8_1_0_0_1_wf
def dot_S200000x8_S8x4_S200000x4_1_0_0_1_n_n : DotDims S200000x8 S8x4 S200000x4 where
  lhsContracting := [1]
  rhsContracting := [0]
  lhsNonContracting := [0]
  rhsNonContracting := [1]
  lhsBatch := []
  rhsBatch := []
  wf := dot_S200000x8_S8x4_S200000x4_1_0_0_1_n_n_wf

class Facts : Prop extends Facts₀ where

variable [Facts]
-- ==== Proof.KernelRun.lean ====
/-
  The idealized kernel's run with its RESULT named.  The program is seven accelerator regions among stretches of host
  operations; the buffer contents at every boundary are a fold from the launch memory (the last of them `W14`).  Every
  weakly fair execution terminates, and the final memory holds, in every buffer that outlives a region, that last
  boundary's contents: in particular the result array is `W14` at its buffer, and the arguments are as launched.
-/
import proofs.«130247_j46978352283765_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v85) = W14 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v85 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Named

end
-- ==== Proof.S0.lean ====
/-
  The idealized kernel's buffers when its first accelerator region is entered, as functions of the launch arguments.
  The host operations before the region compute, from the edge list: the source and destination node of every edge, each
  node's degree (the count of edges arriving at it, plus one) and its inverse square root, the per-node factor (that
  inverse square root squared) and the per-edge factor (the product of the two end nodes' inverse square roots); and a
  row of zeros.  Each is the same composition of the same host operations as the reference program's own stage of that
  name, so it is stated as that stage's function of the edge list.  The arguments are as launched.
-/
import proofs.«130247_j46978352283765_1_alg».proof.Proof.Gen.KernelIdeal.Frame
import proofs.«130247_j46978352283765_1_alg».proof.Proof.Gen.ReferenceIdeal.Read
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg) (c : Dev nD)

/-- A buffer that no operation of a host stretch writes keeps its contents across the stretch. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option maxHeartbeats 32000000 in
theorem w1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

set_option maxHeartbeats 32000000 in
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

set_option maxHeartbeats 32000000 in
theorem w1_v11 : W1 m ρ c (Proc.devRef .tc main_v11) = val_main_v40 (F := Ideal) (m ((c : Thread nD τ).loc main_arg1)) := by
  show StableHlo.after hostOps0 (W0 m ρ c) (Proc.devRef .tc main_v11) = _
  after_results
  rfl

set_option maxHeartbeats 32000000 in
theorem w1_v26 : W1 m ρ c (Proc.devRef .tc main_v26) = val_main_v26 (F := Ideal) (m ((c : Thread nD τ).loc main_arg1)) := by
  show StableHlo.after hostOps0 (W0 m ρ c) (Proc.devRef .tc main_v26) = _
  after_results
  rfl

set_option maxHeartbeats 32000000 in
theorem w1_v28 : W1 m ρ c (Proc.devRef .tc main_v28)
    = shapeCast S1x32 (broadcastInDim S32 ![] bcast_S_S32 (constant (F := Ideal) S_ .f32 0x00000000#32)) shapeCasts_S32_S1x32 := by
  show StableHlo.after hostOps0 (W0 m ρ c) (Proc.devRef .tc main_v28) = _
  after_results
  rfl

theorem w1_arg0 : W1 m ρ c (Proc.devRef .tc main_arg0) = (m ((c : Thread nD τ).loc main_arg0)) :=
  (show W1 m ρ c (Proc.devRef .tc main_arg0) = W0 m ρ c (Proc.devRef .tc main_arg0) by keep_host hostOps0).trans rfl
theorem w1_arg2 : W1 m ρ c (Proc.devRef .tc main_arg2) = (m ((c : Thread nD τ).loc main_arg2)) :=
  (show W1 m ρ c (Proc.devRef .tc main_arg2) = W0 m ρ c (Proc.devRef .tc main_arg2) by keep_host hostOps0).trans rfl
theorem w1_arg3 : W1 m ρ c (Proc.devRef .tc main_arg3) = (m ((c : Thread nD τ).loc main_arg3)) :=
  (show W1 m ρ c (Proc.devRef .tc main_arg3) = W0 m ρ c (Proc.devRef .tc main_arg3) by keep_host hostOps0).trans rfl
theorem w1_arg4 : W1 m ρ c (Proc.devRef .tc main_arg4) = (m ((c : Thread nD τ).loc main_arg4)) :=
  (show W1 m ρ c (Proc.devRef .tc main_arg4) = W0 m ρ c (Proc.devRef .tc main_arg4) by keep_host hostOps0).trans rfl
theorem w1_arg5 : W1 m ρ c (Proc.devRef .tc main_arg5) = (m ((c : Thread nD τ).loc main_arg5)) :=
  (show W1 m ρ c (Proc.devRef .tc main_arg5) = W0 m ρ c (Proc.devRef .tc main_arg5) by keep_host hostOps0).trans rfl

end Cert.KernelIdeal.Stages

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«130247_j46978352283765_1_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.LibAffineLayer.lean ====
/-
  Two array functions over the extended reals, for any extents M, K, N, and the accelerator bodies and host operations that
  compute them (a linear stage and a combining stage of a graph convolution layer):
    * `affine A W b` is the [M,N] array whose entry (p, q) is (∑ c, A (p, c) · W (c, q)) + b (0, q): rows of A times
      the matrix W, plus the one-row array b added to every row;
    * `layerOut agg lin d b` is the [M,N] array whose entry (p, q) is tanh ((agg (p, q) + lin (p, q) · d (p, 0)) + b (0, q)):
      the neighbours' sum plus the node's own row scaled by its column entry of d, plus the bias row, through tanh.
  A change of float format is the identity on the extended reals and a zero accumulator adds nothing, so the body
  "round both operands, multiply into zeros, add the broadcast bias row" is `affine`, and the body "sum, scaled own row,
  bias row, tanh" with its same-shape casts and broadcasts is `layerOut`.  Against the host: `affine` with a zero row is the
  plain matrix product, with a bias row it is the product plus the row repeated down the rows; `layerOut` is the host's
  tanh of the same sum once the column and the row are read from their vectors.
-/
import Idealize.ShloMosaic.PureOps.Ideal.Laws
import Idealize.ShloMosaic.Lib.ValueIdx
import Idealize.ShloMosaic.Lib.ValueLayout
import Idealize.ShloMosaic.Lib.Pipeline.Value
import proofs.«130247_j46978352283765_1_alg».proof.Proof.LibDotNN

noncomputable section

open scoped BigOperators

namespace Cert.Gcn

open Idealize.ShloMosaic Idealize.ShloMosaic.ValueIdx

variable {M K N : Nat}

/-- Rows of `A` times `W`, plus the row `b`. -/
def affine (A : FVec Ideal ⟨2, ![M, K]⟩ .f32) (W : FVec Ideal ⟨2, ![K, N]⟩ .f32) (b : FVec Ideal ⟨2, ![1, N]⟩ .f32) :
    FVec Ideal ⟨2, ![M, N]⟩ .f32 :=
  fun j => (∑ c : Fin K, A (ix2 (j 0) c) * W (ix2 c (j 1))) + b (ix2 (0 : Fin 1) (j 1))

/-- One layer's output: tanh of (neighbour sum + own row scaled by the node's factor + bias row). -/
def layerOut (agg lin : FVec Ideal ⟨2, ![M, N]⟩ .f32) (d : FVec Ideal ⟨2, ![M, 1]⟩ .f32) (b : FVec Ideal ⟨2, ![1, N]⟩ .f32) :
    FVec Ideal ⟨2, ![M, N]⟩ .f32 :=
  fun j => Ideal.tanh ((agg j + lin j * d (ix2 (j 0) (0 : Fin 1))) + b (ix2 (0 : Fin 1) (j 1)))

theorem affine_apply (A : FVec Ideal ⟨2, ![M, K]⟩ .f32) (W : FVec Ideal ⟨2, ![K, N]⟩ .f32) (b : FVec Ideal ⟨2, ![1, N]⟩ .f32)
    (p : Fin M) (q : Fin N) :
    affine A W b (ix2 p q) = (∑ c : Fin K, A (ix2 p c) * W (ix2 c q)) + b (ix2 (0 : Fin 1) q) := rfl

theorem layerOut_apply (agg lin : FVec Ideal ⟨2, ![M, N]⟩ .f32) (d : FVec Ideal ⟨2, ![M, 1]⟩ .f32) (b : FVec Ideal ⟨2, ![1, N]⟩ .f32)
    (p : Fin M) (q : Fin N) :
    layerOut agg lin d b (ix2 p q)
      = Ideal.tanh ((agg (ix2 p q) + lin (ix2 p q) * d (ix2 p (0 : Fin 1))) + b (ix2 (0 : Fin 1) q)) := rfl

/-- A one-row array repeated down M rows, read at (p, q): the row's entry q. -/
theorem row_bcast_apply (b : FVec Ideal ⟨2, ![1, N]⟩ .f32) (h : (⟨2, ![1, N]⟩ : Shape).Broadcasts ⟨2, ![M, N]⟩)
    (p : Fin M) (q : Fin N) : broadcastTo ⟨2, ![M, N]⟩ b h (ix2 p q) = b (ix2 (0 : Fin 1) q) := by
  refine broadcastTo_apply b h (ix2 p q) (ix2 (0 : Fin 1) q) fun a => ?_
  match a with
  | ⟨0, _⟩ => rfl
  | ⟨1, _⟩ =>
    show q.val = if N = 1 then 0 else q.val
    split
    · have := q.isLt; omega
    · rfl

/-- A one-column array repeated along N columns, read at (p, q): the column's entry p. -/
theorem col_bcast_apply (d : FVec Ideal ⟨2, ![M, 1]⟩ .f32) (h : (⟨2, ![M, 1]⟩ : Shape).Broadcasts ⟨2, ![M, N]⟩)
    (p : Fin M) (q : Fin N) : broadcastTo ⟨2, ![M, N]⟩ d h (ix2 p q) = d (ix2 p (0 : Fin 1)) := by
  refine broadcastTo_apply d h (ix2 p q) (ix2 p (0 : Fin 1)) fun a => ?_
  match a with
  | ⟨0, _⟩ =>
    show p.val = if M = 1 then 0 else p.val
    split
    · have := p.isLt; omega
    · rfl
  | ⟨1, _⟩ => rfl

/-- The accelerator body of the linear stage: both operands rounded to a narrower format, multiplied into a zero
    accumulator, the bias row (through a same-shape cast) repeated down the rows and added. -/
theorem affine_body (w : DotDims.WF ⟨2, ![M, K]⟩ ⟨2, ![K, N]⟩ ⟨2, ![M, N]⟩ [1] [0] [0] [1] [] [])
    (ψ : FTy) (hb : ψ.bits < FTy.f32.bits)
    (hs : (⟨2, ![1, N]⟩ : Shape).ShapeCasts ⟨2, ![1, N]⟩) (hbc : (⟨2, ![1, N]⟩ : Shape).Broadcasts ⟨2, ![M, N]⟩)
    (A : FVec Ideal ⟨2, ![M, K]⟩ .f32) (W : FVec Ideal ⟨2, ![K, N]⟩ .f32) (b : FVec Ideal ⟨2, ![1, N]⟩ .f32) :
    addf (matmul (⟨[1], [0], [0], [1], [], [], w⟩ : DotDims ⟨2, ![M, K]⟩ ⟨2, ![K, N]⟩ ⟨2, ![M, N]⟩) none
          (truncf ψ A hb) (truncf ψ W hb) (constant ⟨2, ![M, N]⟩ .f32 0x00000000#32))
        (broadcastTo ⟨2, ![M, N]⟩ (shapeCast ⟨2, ![1, N]⟩ b hs) hbc) = affine A W b := by
  funext j
  obtain ⟨p, q, rfl⟩ : ∃ (p : Fin M) (q : Fin N), j = ix2 p q := ⟨j 0, j 1, eq_ix2 j⟩
  rw [addf_apply, Cert.LibDotNN.matmul_rounded_apply w none ψ hb hb A W p q, shapeCast_self, row_bcast_apply, affine_apply]

/-- The accelerator body of the combining stage. -/
theorem layer_body (h1 : (⟨2, ![M, N]⟩ : Shape).ShapeCasts ⟨2, ![M, N]⟩) (h2 : (⟨2, ![M, 1]⟩ : Shape).ShapeCasts ⟨2, ![M, 1]⟩)
    (h3 : (⟨2, ![1, N]⟩ : Shape).ShapeCasts ⟨2, ![1, N]⟩)
    (hc : (⟨2, ![M, 1]⟩ : Shape).Broadcasts ⟨2, ![M, N]⟩) (hr : (⟨2, ![1, N]⟩ : Shape).Broadcasts ⟨2, ![M, N]⟩)
    (agg lin : FVec Ideal ⟨2, ![M, N]⟩ .f32) (d : FVec Ideal ⟨2, ![M, 1]⟩ .f32) (b : FVec Ideal ⟨2, ![1, N]⟩ .f32) :
    tanh (addf (addf (shapeCast ⟨2, ![M, N]⟩ agg h1)
        (mulf (shapeCast ⟨2, ![M, N]⟩ lin h1) (broadcastTo ⟨2, ![M, N]⟩ (shapeCast ⟨2, ![M, 1]⟩ d h2) hc)))
        (broadcastTo ⟨2, ![M, N]⟩ (shapeCast ⟨2, ![1, N]⟩ b h3) hr)) = layerOut agg lin d b := by
  funext j
  obtain ⟨p, q, rfl⟩ : ∃ (p : Fin M) (q : Fin N), j = ix2 p q := ⟨j 0, j 1, eq_ix2 j⟩
  show Ideal.tanh (addf (addf (shapeCast ⟨2, ![M, N]⟩ agg h1)
        (mulf (shapeCast ⟨2, ![M, N]⟩ lin h1) (broadcastTo ⟨2, ![M, N]⟩ (shapeCast ⟨2, ![M, 1]⟩ d h2) hc)))
        (broadcastTo ⟨2, ![M, N]⟩ (shapeCast ⟨2, ![1, N]⟩ b h3) hr) (ix2 p q)) = _
  rw [addf_apply, addf_apply, mulf_apply, shapeCast_self, shapeCast_self, shapeCast_self, shapeCast_self,
    row_bcast_apply, col_bcast_apply, layerOut_apply]

/-- With a row of zeros, `affine` is the host's plain matrix product. -/
theorem affine_zero_eq_dot (w : DotDims.WF ⟨2, ![M, K]⟩ ⟨2, ![K, N]⟩ ⟨2, ![M, N]⟩ [1] [0] [0] [1] [] [])
    (A : FVec Ideal ⟨2, ![M, K]⟩ .f32) (W : FVec Ideal ⟨2, ![K, N]⟩ .f32) (z : FVec Ideal ⟨2, ![1, N]⟩ .f32)
    (hz : ∀ q : Fin N, z (ix2 (0 : Fin 1) q) = 0) :
    affine A W z
      = Host.dotGeneral (⟨[1], [0], [0], [1], [], [], w⟩ : DotDims ⟨2, ![M, K]⟩ ⟨2, ![K, N]⟩ ⟨2, ![M, N]⟩) none A W := by
  funext j
  obtain ⟨p, q, rfl⟩ : ∃ (p : Fin M) (q : Fin N), j = ix2 p q := ⟨j 0, j 1, eq_ix2 j⟩
  rw [Cert.LibDotNN.dotGeneral_nn_apply, affine_apply, hz q, add_zero]

/-- With a bias row, `affine` is the host's matrix product plus an array `B` that repeats the row down the rows. -/
theorem affine_eq_dot_add (w : DotDims.WF ⟨2, ![M, K]⟩ ⟨2, ![K, N]⟩ ⟨2, ![M, N]⟩ [1] [0] [0] [1] [] [])
    (A : FVec Ideal ⟨2, ![M, K]⟩ .f32) (W : FVec Ideal ⟨2, ![K, N]⟩ .f32) (b : FVec Ideal ⟨2, ![1, N]⟩ .f32)
    (B : FVec Ideal ⟨2, ![M, N]⟩ .f32) (hB : ∀ (p : Fin M) (q : Fin N), B (ix2 p q) = b (ix2 (0 : Fin 1) q)) :
    affine A W b
      = addf (Host.dotGeneral (⟨[1], [0], [0], [1], [], [], w⟩ : DotDims ⟨2, ![M, K]⟩ ⟨2, ![K, N]⟩ ⟨2, ![M, N]⟩) none A W) B := by
  funext j
  obtain ⟨p, q, rfl⟩ : ∃ (p : Fin M) (q : Fin N), j = ix2 p q := ⟨j 0, j 1, eq_ix2 j⟩
  rw [addf_apply, Cert.LibDotNN.dotGeneral_nn_apply, hB p q, affine_apply]

/-- `layerOut` is the host's tanh of (sum + own row · D) + B once D repeats the column and B the row. -/
theorem layerOut_eq_host (agg lin : FVec Ideal ⟨2, ![M, N]⟩ .f32) (d : FVec Ideal ⟨2, ![M, 1]⟩ .f32) (b : FVec Ideal ⟨2, ![1, N]⟩ .f32)
    (D B : FVec Ideal ⟨2, ![M, N]⟩ .f32) (hD : ∀ (p : Fin M) (q : Fin N), D (ix2 p q) = d (ix2 p (0 : Fin 1)))
    (hB : ∀ (p : Fin M) (q : Fin N), B (ix2 p q) = b (ix2 (0 : Fin 1) q)) :
    layerOut agg lin d b = Host.tanh (addf (addf agg (mulf lin D)) B) := by
  funext j
  obtain ⟨p, q, rfl⟩ : ∃ (p : Fin M) (q : Fin N), j = ix2 p q := ⟨j 0, j 1, eq_ix2 j⟩
  show _ = Ideal.tanh (addf (addf agg (mulf lin D)) B (ix2 p q))
  rw [addf_apply, addf_apply, mulf_apply, hD p q, hB p q, layerOut_apply]

end Cert.Gcn

end
-- ==== Proof.Region0.lean ====
/-
  Region 0 of the idealized kernel: a linear stage.  The grid has 25 points; point t takes rows 8000·t … 8000·t + 7999 of
  the [200000,256] input, the whole [256,32] matrix and the whole one-row [1,32] array, and writes the same rows of the
  [200000,32] output.  Its body is `affine` of the blocks, an entry of `affine` depends only on its own row of the input, and
  the 25 row blocks tile the output: so whatever the buffers hold when the region is entered, the output array ends
  as `affine` of the three whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `affine` of the loaded blocks. -/
theorem pay_eq (x0 : Vec Ideal S8000x256 .f32) (x1 : Vec Ideal S256x32 .f32) (x2 : Vec Ideal S1x32 .f32) :
    k0_pay1 x0 x1 x2 = Cert.Gcn.affine (M := 8000) (K := 256) (N := 32) x0 x1 x2 := by
  unfold k0_pay1
  exact Cert.Gcn.affine_body _ .bf16 _ _ _ x0 x1 x2

/-- The printed index maps over the grid: the input's row block moves with the output's, every other block index is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) < 25 :=
  (by decide +kernel : ∀ t : Fin grid0.N, _)

/-- Every one of the 25 row blocks is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

set_option maxHeartbeats 4000000 in
/-- What point `t` writes back is block `t` of `affine` of the whole arrays. -/
theorem flushed (c : Dev nD) (t : Fin cfg0.N) :
    (dat0 V c).flushed 3 t = ((cfg0.win 3).blk t).view.read (Elt Ideal) (Cert.Gcn.affine (M := 200000) (K := 256) (N := 32) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S8000x256) hz, View.ld_unit_zero (S := S256x32) hz, View.ld_unit_zero (S := S1x32) hz]
  rw [pay_eq]
  obtain ⟨e0, e1, e2, e3, e4, e5, e6, e7⟩ := idx_facts t
  funext y
  show Cert.Gcn.affine (M := 8000) (K := 256) (N := 32) (iblk0 V c 0 t) (iblk0 V c 1 t) (iblk0 V c 2 t) y
    = Cert.Gcn.affine (M := 200000) (K := 256) (N := 32) (V c (Pipeline.arrRef spec0 0)) (V c (Pipeline.arrRef spec0 1)) (V c (Pipeline.arrRef spec0 2)) (((cfg0.win 3).blk t).view.emb y)
  unfold Cert.Gcn.affine
  have hy0 : (y 0).val < 8000 := (y 0).isLt
  have hy1 : (y 1).val < 32 := (y 1).isLt
  refine congrArg₂ (· + ·) (Finset.sum_congr rfl fun k _ => congrArg₂ (· * ·) ?_ ?_) ?_
  · show (V c (Pipeline.arrRef spec0 0)) (((cfg0.win 0).blk t).view.emb (ix2 (y 0) k)) = (V c (Pipeline.arrRef spec0 0)) (ix2 ((((cfg0.win 3).blk t).view.emb y) 0) k)
    refine congrArg (V c (Pipeline.arrRef spec0 0)) (funext fun a => Fin.ext ?_)
    match a with
    | ⟨0, _⟩ => show win0_0.index t (0 : Fin 2) * 8000 + 1 * (y 0).val = win0_3.index t (0 : Fin 2) * 8000 + 1 * (y 0).val; omega
    | ⟨1, _⟩ => show win0_0.index t (1 : Fin 2) * 256 + 1 * k.val = k.val; omega
  · show (V c (Pipeline.arrRef spec0 1)) (((cfg0.win 1).blk t).view.emb (ix2 k (y 1))) = (V c (Pipeline.arrRef spec0 1)) (ix2 k ((((cfg0.win 3).blk t).view.emb y) 1))
    refine congrArg (V c (Pipeline.arrRef spec0 1)) (funext fun a => Fin.ext ?_)
    match a with
    | ⟨0, _⟩ => show win0_1.index t (0 : Fin 2) * 256 + 1 * k.val = k.val; omega
    | ⟨1, _⟩ => show win0_1.index t (1 : Fin 2) * 32 + 1 * (y 1).val = win0_3.index t (1 : Fin 2) * 32 + 1 * (y 1).val; omega
  · show (V c (Pipeline.arrRef spec0 2)) (((cfg0.win 2).blk t).view.emb (ix2 (0 : Fin 1) (y 1))) = (V c (Pipeline.arrRef spec0 2)) (ix2 (0 : Fin 1) ((((cfg0.win 3).blk t).view.emb y) 1))
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 32 + 1 * (y 1).val = win0_3.index t (1 : Fin 2) * 32 + 1 * (y 1).val; omega

/-- An index of the output array is in point `t`'s block iff each coordinate is in the block's range on its axis. -/
theorem mem_blk (t : Fin cfg0.N) (i : S200000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v29).slice (win0_3.rect t)).set ↔ _
  rw [View.set_slice_whole, Rect.mem_set_unit]
  exact Iff.rfl

/-- Row r of the output lies in the block of the point whose row-block index is r / 8000. -/
theorem cover (i : S200000x32.Idx) : ∃ t : Fin cfg0.N, (cfg0.win 3).flush t = true ∧ i ∈ ((cfg0.win 3).blk t).view.set := by
  have hi0 : (i 0).val < 200000 := (i 0).isLt
  have hi1 : (i 1).val < 32 := (i 1).isLt
  obtain ⟨t, ht⟩ := idx_onto ⟨(i 0).val / 8000, by omega⟩
  have q0 : win0_3.index t (0 : Fin 2) = (i 0).val / 8000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 32 ≤ (i 1).val ∧ (i 1).val < win0_3.index t (1 : Fin 2) * 32 + 32; omega

/-- The output array after the region: `affine` of the three input arrays as the region found them. -/
theorem final (c : Dev nD) : (dat0 V c).arrAt 3 cfg0.N = (Cert.Gcn.affine (M := 200000) (K := 256) (N := 32) (V c (Pipeline.arrRef spec0 0)) (V c (Pipeline.arrRef spec0 1)) (V c (Pipeline.arrRef spec0 2))) :=
  (dat0 V c).arrAt_eq_of_cover 3 (Cert.Gcn.affine (M := 200000) (K := 256) (N := 32) (V c (Pipeline.arrRef spec0 0)) (V c (Pipeline.arrRef spec0 1)) (V c (Pipeline.arrRef spec0 2))) (fun t _ => flushed V c t) cover

end Cert.KernelIdeal.Region0

end
-- ==== Proof.Region1.lean ====
/-
  Region 1 of the idealized kernel: a combining stage.  The grid has 25 points; point t takes rows 8000·t … 8000·t + 7999
  of the neighbour sums [200000,32], of the node's own rows [200000,32] and of the one-column factor array [200000,1], the whole
  one-row bias [1,32], and writes the same rows of the [200000,32] output.  Its body is `layerOut` of the blocks, an entry of
  `layerOut` depends only on its own row, and the 25 row blocks tile the output: so whatever the buffers hold when the
  region is entered, the output array ends as `layerOut` of the four whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `layerOut` of the loaded blocks. -/
theorem pay_eq (x0 x1 : Vec Ideal S8000x32 .f32) (x2 : Vec Ideal S8000x1 .f32) (x3 : Vec Ideal S1x32 .f32) :
    k1_pay1 x0 x1 x2 x3 = Cert.Gcn.layerOut (M := 8000) (N := 32) x0 x1 x2 x3 := by
  unfold k1_pay1
  exact Cert.Gcn.layer_body _ _ _ _ _ x0 x1 x2 x3

/-- The printed index maps over the grid: the three row-blocked inputs move with the output, every other block index is 0. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 25 :=
  (by decide +kernel : ∀ t : Fin grid1.N, _)

/-- Every one of the 25 row blocks is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

set_option maxHeartbeats 4000000 in
/-- What point `t` writes back is block `t` of `layerOut` of the whole arrays. -/
theorem flushed (c : Dev nD) (t : Fin cfg1.N) :
    (dat1 V c).flushed 4 t = ((cfg1.win 4).blk t).view.read (Elt Ideal) (Cert.Gcn.layerOut (M := 200000) (N := 32) (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S8000x32) hz, View.ld_unit_zero (S := S8000x1) hz, View.ld_unit_zero (S := S1x32) hz]
  rw [pay_eq]
  obtain ⟨e0, e1, e2, e3, e4, e5, e6, e7, e8, e9⟩ := idx_facts t
  funext y
  show Cert.Gcn.layerOut (M := 8000) (N := 32) (iblk1 V c 0 t) (iblk1 V c 1 t) (iblk1 V c 2 t) (iblk1 V c 3 t) y
    = Cert.Gcn.layerOut (M := 200000) (N := 32) (V c (Pipeline.arrRef spec1 0)) (V c (Pipeline.arrRef spec1 1)) (V c (Pipeline.arrRef spec1 2)) (V c (Pipeline.arrRef spec1 3)) (((cfg1.win 4).blk t).view.emb y)
  unfold Cert.Gcn.layerOut
  have hy0 : (y 0).val < 8000 := (y 0).isLt
  have hy1 : (y 1).val < 32 := (y 1).isLt
  refine congrArg Ideal.tanh (congrArg₂ (· + ·) (congrArg₂ (· + ·) ?_ (congrArg₂ (· * ·) ?_ ?_)) ?_)
  · show (V c (Pipeline.arrRef spec1 0)) (((cfg1.win 0).blk t).view.emb y) = (V c (Pipeline.arrRef spec1 0)) (((cfg1.win 4).blk t).view.emb y)
    refine congrArg (V c (Pipeline.arrRef spec1 0)) (funext fun a => Fin.ext ?_)
    match a with
    | ⟨0, _⟩ => show win1_0.index t (0 : Fin 2) * 8000 + 1 * (y 0).val = win1_4.index t (0 : Fin 2) * 8000 + 1 * (y 0).val; omega
    | ⟨1, _⟩ => show win1_0.index t (1 : Fin 2) * 32 + 1 * (y 1).val = win1_4.index t (1 : Fin 2) * 32 + 1 * (y 1).val; omega
  · show (V c (Pipeline.arrRef spec1 1)) (((cfg1.win 1).blk t).view.emb y) = (V c (Pipeline.arrRef spec1 1)) (((cfg1.win 4).blk t).view.emb y)
    refine congrArg (V c (Pipeline.arrRef spec1 1)) (funext fun a => Fin.ext ?_)
    match a with
    | ⟨0, _⟩ => show win1_1.index t (0 : Fin 2) * 8000 + 1 * (y 0).val = win1_4.index t (0 : Fin 2) * 8000 + 1 * (y 0).val; omega
    | ⟨1, _⟩ => show win1_1.index t (1 : Fin 2) * 32 + 1 * (y 1).val = win1_4.index t (1 : Fin 2) * 32 + 1 * (y 1).val; omega
  · show (V c (Pipeline.arrRef spec1 2)) (((cfg1.win 2).blk t).view.emb (ix2 (y 0) (0 : Fin 1))) = (V c (Pipeline.arrRef spec1 2)) (ix2 ((((cfg1.win 4).blk t).view.emb y) 0) (0 : Fin 1))
    refine congrArg (V c (Pipeline.arrRef spec1 2)) (funext fun a => Fin.ext ?_)
    match a with
    | ⟨0, _⟩ => show win1_2.index t (0 : Fin 2) * 8000 + 1 * (y 0).val = win1_4.index t (0 : Fin 2) * 8000 + 1 * (y 0).val; omega
    | ⟨1, _⟩ => show win1_2.index t (1 : Fin 2) * 1 + 1 * 0 = 0; omega
  · show (V c (Pipeline.arrRef spec1 3)) (((cfg1.win 3).blk t).view.emb (ix2 (0 : Fin 1) (y 1))) = (V c (Pipeline.arrRef spec1 3)) (ix2 (0 : Fin 1) ((((cfg1.win 4).blk t).view.emb y) 1))
    refine congrArg (V c (Pipeline.arrRef spec1 3)) (funext fun a => Fin.ext ?_)
    match a with
    | ⟨0, _⟩ => show win1_3.index t (0 : Fin 2) * 1 + 1 * 0 = 0; omega
    | ⟨1, _⟩ => show win1_3.index t (1 : Fin 2) * 32 + 1 * (y 1).val = win1_4.index t (1 : Fin 2) * 32 + 1 * (y 1).val; omega

/-- An index of the output array is in point `t`'s block iff each coordinate is in the block's range on its axis. -/
theorem mem_blk (t : Fin cfg1.N) (i : S200000x32.Idx) :
    i ∈ ((cfg1.win 4).blk t).view.set ↔ ∀ a : Fin 2, win1_4.index t a * S8000x32.size a ≤ (i a).val ∧ (i a).val < win1_4.index t a * S8000x32.size a + S8000x32.size a := by
  show i ∈ ((View.whole main_v45).slice (win1_4.rect t)).set ↔ _
  rw [View.set_slice_whole, Rect.mem_set_unit]
  exact Iff.rfl

/-- Row r of the output lies in the block of the point whose row-block index is r / 8000. -/
theorem cover (i : S200000x32.Idx) : ∃ t : Fin cfg1.N, (cfg1.win 4).flush t = true ∧ i ∈ ((cfg1.win 4).blk t).view.set := by
  have hi0 : (i 0).val < 200000 := (i 0).isLt
  have hi1 : (i 1).val < 32 := (i 1).isLt
  obtain ⟨t, ht⟩ := idx_onto ⟨(i 0).val / 8000, by omega⟩
  have q0 : win1_4.index t (0 : Fin 2) = (i 0).val / 8000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 8000 ≤ (i 0).val ∧ (i 0).val < win1_4.index t (0 : Fin 2) * 8000 + 8000; omega
  | ⟨1, _⟩ => show win1_4.index t (1 : Fin 2) * 32 ≤ (i 1).val ∧ (i 1).val < win1_4.index t (1 : Fin 2) * 32 + 32; omega

/-- The output array after the region: `layerOut` of the four input arrays as the region found them. -/
theorem final (c : Dev nD) : (dat1 V c).arrAt 4 cfg1.N = (Cert.Gcn.layerOut (M := 200000) (N := 32) (V c (Pipeline.arrRef spec1 0)) (V c (Pipeline.arrRef spec1 1)) (V c (Pipeline.arrRef spec1 2)) (V c (Pipeline.arrRef spec1 3))) :=
  (dat1 V c).arrAt_eq_of_cover 4 (Cert.Gcn.layerOut (M := 200000) (N := 32) (V c (Pipeline.arrRef spec1 0)) (V c (Pipeline.arrRef spec1 1)) (V c (Pipeline.arrRef spec1 2)) (V c (Pipeline.arrRef spec1 3))) (fun t _ => flushed V c t) cover

end Cert.KernelIdeal.Region1

end
-- ==== Proof.LibVecBroadcast.lean ====
/-
  Vectors laid out as one-column or one-row arrays and repeated along the other axis, read at an index, for any extents
  and any element type: a vector reshaped to a column [M,1] reads at (p, 0) its entry p, reshaped to a row [1,N] reads at
  (0, q) its entry q; a vector broadcast by the host along a new unit axis to a column (or a row) and that column (row)
  broadcast along N columns (down M rows) reads at (p, q) the vector's entry p (entry q).  And a row [1,N] cut by a reshape
  from the host's splat of the f32 zero word is zero at every entry, at the ideal values.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx

variable {M N : Nat} {α : Type}

/-- A vector as one column (a reshape), read at (p, 0). -/
theorem colcast_apply (v : (⟨1, ![M]⟩ : Shape).Idx → α) (h : (⟨1, ![M]⟩ : Shape).ShapeCasts ⟨2, ![M, 1]⟩) (p : Fin M) :
    shapeCast ⟨2, ![M, 1]⟩ v h (ix2 p (0 : Fin 1)) = v (ix1 p) :=
  shapeCast_apply v h _ _ (by
    rw [Shape.rowMajor_val_two, Shape.rowMajor_val_one]
    show p.val = p.val * 1 + 0
    omega)

/-- A vector as one row (a reshape), read at (0, q). -/
theorem rowcast_apply (v : (⟨1, ![N]⟩ : Shape).Idx → α) (h : (⟨1, ![N]⟩ : Shape).ShapeCasts ⟨2, ![1, N]⟩) (q : Fin N) :
    shapeCast ⟨2, ![1, N]⟩ v h (ix2 (0 : Fin 1) q) = v (ix1 q) :=
  shapeCast_a_1a_apply v h 0 q

/-- A vector broadcast to one column and that column along N columns, read at (p, q): entry p. -/
theorem col_of_vec (v : (⟨1, ![M]⟩ : Shape).Idx → α) (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1 v) (ix2 p q) = v (ix1 p) := by
  rw [broadcastInDim_apply ![0, 1] h2 _ (ix2 p q) (ix2 p (0 : Fin 1)) (fun a => by
      match a with
      | ⟨0, _⟩ =>
        show p.val = if M = 1 then 0 else p.val
        split
        · have := p.isLt; omega
        · rfl
      | ⟨1, _⟩ => rfl),
    broadcastInDim_apply ![0] h1 v (ix2 p (0 : Fin 1)) (ix1 p) (fun a => by
      match a with
      | ⟨0, _⟩ =>
        show p.val = if M = 1 then 0 else p.val
        split
        · have := p.isLt; omega
        · rfl)]

/-- A vector broadcast to one row and that row down M rows, read at (p, q): entry q. -/
theorem row_of_vec (v : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [broadcastInDim_apply ![0, 1] h2 _ (ix2 p q) (ix2 (0 : Fin 1) q) (fun a => by
      match a with
      | ⟨0, _⟩ => rfl
      | ⟨1, _⟩ =>
        show q.val = if N = 1 then 0 else q.val
        split
        · have := q.isLt; omega
        · rfl),
    broadcastInDim_apply ![1] h1 v (ix2 (0 : Fin 1) q) (ix1 q) (fun a => by
      match a with
      | ⟨0, _⟩ =>
        show q.val = if N = 1 then 0 else q.val
        split
        · have := q.isLt; omega
        · rfl)]

/-- A row cut from a splat of the zero word is zero. -/
theorem zero_row_apply (h1 : (⟨0, ![]⟩ : Shape).BroadcastsInDim ⟨1, ![N]⟩ ![])
    (h2 : (⟨1, ![N]⟩ : Shape).ShapeCasts ⟨2, ![1, N]⟩) (q : Fin N) :
    shapeCast ⟨2, ![1, N]⟩ (broadcastInDim ⟨1, ![N]⟩ ![] h1 (constant (F := Ideal) ⟨0, ![]⟩ .f32 0x00000000#32)) h2
      (ix2 (0 : Fin 1) q) = 0 := by
  rw [rowcast_apply, broadcastInDim_apply ![] h1 _ (ix1 q) ix0 (fun a => a.elim0), constant_apply, Ideal.ofBits_zero_f32]

end Cert.Gcn

end
-- ==== Proof.RefStages.lean ====
/-
  The reference program's stages against the two array functions of the network, at this network's shapes: the
  reference's matrix product is `affine` with a zero row; its tanh of (neighbour sum + own row · factor column) + bias row
  is `layerOut` of the same arrays with the factor and the bias given as a reshaped column and row; its last product plus
  bias row is `affine` with that row.  The node and edge factors the reference recomputes in every layer are the same terms.
-/
import proofs.«130247_j46978352283765_1_alg».proof.Proof.Gen.ReferenceIdeal.Read
import proofs.«130247_j46978352283765_1_alg».proof.Proof.LibAffineLayer
import proofs.«130247_j46978352283765_1_alg».proof.Proof.LibVecBroadcast

set_option maxRecDepth 16384

noncomputable section

open scoped BigOperators

namespace Cert.ReferenceIdeal.Stage

open Cert.ReferenceIdeal Cert.ReferenceIdeal.Read Idealize.ShloMosaic Idealize.ShloMosaic.ValueIdx

/-! ### The linear stages -/

theorem lin1 (x0 : (⟨S200000x256, .f32⟩ : BufTy).Contents (Elt Ideal)) (x2 : (⟨S256x32, .f32⟩ : BufTy).Contents (Elt Ideal)) (z : (⟨S1x32, .f32⟩ : BufTy).Contents (Elt Ideal)) (hz : ∀ q : Fin 32, z (ix2 (0 : Fin 1) q) = 0) :
    Cert.Gcn.affine (M := 200000) (K := 256) (N := 32) x0 x2 z = val_main_v11 (F := Ideal) x0 x2 := by
  unfold val_main_v11
  exact Cert.Gcn.affine_zero_eq_dot _ x0 x2 z hz

theorem lin2 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (z : (⟨S1x16, .f32⟩ : BufTy).Contents (Elt Ideal))
    (hz : ∀ q : Fin 16, z (ix2 (0 : Fin 1) q) = 0) :
    Cert.Gcn.affine (M := 200000) (K := 32) (N := 16) (val_main_v48 (F := Ideal) x0 x1 x2 x3) x4 z
      = val_main_v49 (F := Ideal) x0 x1 x2 x3 x4 := by
  unfold val_main_v49
  exact Cert.Gcn.affine_zero_eq_dot _ _ x4 z hz

theorem lin3 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (x6 : (⟨S16x8, .f32⟩ : BufTy).Contents (Elt Ideal)) (z : (⟨S1x8, .f32⟩ : BufTy).Contents (Elt Ideal)) (hz : ∀ q : Fin 8, z (ix2 (0 : Fin 1) q) = 0) :
    Cert.Gcn.affine (M := 200000) (K := 16) (N := 8) (val_main_v86 (F := Ideal) x0 x1 x2 x3 x4 x5) x6 z
      = val_main_v87 (F := Ideal) x0 x1 x2 x3 x4 x5 x6 := by
  unfold val_main_v87
  exact Cert.Gcn.affine_zero_eq_dot _ _ x6 z hz

theorem out4 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (x6 : (⟨S16x8, .f32⟩ : BufTy).Contents (Elt Ideal)) (x7 : (⟨S8, .f32⟩ : BufTy).Contents (Elt Ideal)) (x8 : (⟨S8x4, .f32⟩ : BufTy).Contents (Elt Ideal)) (x9 : (⟨S4, .f32⟩ : BufTy).Contents (Elt Ideal)) (h : S4.ShapeCasts S1x4) :
    Cert.Gcn.affine (M := 200000) (K := 8) (N := 4) (val_main_v124 (F := Ideal) x0 x1 x2 x3 x4 x5 x6 x7) x8 (shapeCast S1x4 x9 h)
      = val_main_v128 (F := Ideal) x0 x1 x2 x3 x4 x5 x6 x7 x8 x9 := by
  unfold val_main_v128 val_main_v125
  refine Cert.Gcn.affine_eq_dot_add _ _ x8 _ (val_main_v127 (F := Ideal) x9) (fun p q => ?_)
  unfold val_main_v127 val_main_v126
  rw [Cert.Gcn.row_of_vec, Cert.Gcn.rowcast_apply]

/-! ### The combining stages -/

theorem layer1 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal))
    (hc : S200000.ShapeCasts S200000x1) (hr : S32.ShapeCasts S1x32) :
    Cert.Gcn.layerOut (M := 200000) (N := 32) (val_main_v39 (F := Ideal) x0 x1 x2) (val_main_v11 (F := Ideal) x0 x2)
        (shapeCast S200000x1 (val_main_v40 (F := Ideal) x1) hc) (shapeCast S1x32 x3 hr)
      = val_main_v48 (F := Ideal) x0 x1 x2 x3 := by
  unfold val_main_v48 val_main_v47 val_main_v44 val_main_v43
  refine Cert.Gcn.layerOut_eq_host _ _ _ _ (val_main_v42 (F := Ideal) x1) (val_main_v46 (F := Ideal) x3) (fun p q => ?_) (fun p q => ?_)
  · unfold val_main_v42 val_main_v41
    rw [Cert.Gcn.col_of_vec, Cert.Gcn.colcast_apply]
  · unfold val_main_v46 val_main_v45
    rw [Cert.Gcn.row_of_vec, Cert.Gcn.rowcast_apply]

theorem layer2 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (hc : S200000.ShapeCasts S200000x1) (hr : S16.ShapeCasts S1x16) :
    Cert.Gcn.layerOut (M := 200000) (N := 16) (val_main_v77 (F := Ideal) x0 x1 x2 x3 x4) (val_main_v49 (F := Ideal) x0 x1 x2 x3 x4)
        (shapeCast S200000x1 (val_main_v78 (F := Ideal) x1) hc) (shapeCast S1x16 x5 hr)
      = val_main_v86 (F := Ideal) x0 x1 x2 x3 x4 x5 := by
  unfold val_main_v86 val_main_v85 val_main_v82 val_main_v81
  refine Cert.Gcn.layerOut_eq_host _ _ _ _ (val_main_v80 (F := Ideal) x1) (val_main_v84 (F := Ideal) x5) (fun p q => ?_) (fun p q => ?_)
  · unfold val_main_v80 val_main_v79
    rw [Cert.Gcn.col_of_vec, Cert.Gcn.colcast_apply]
  · unfold val_main_v84 val_main_v83
    rw [Cert.Gcn.row_of_vec, Cert.Gcn.rowcast_apply]

theorem layer3 (x0 : (⟨S200000x256, .f32⟩ : BufTy).Contents (Elt Ideal)) (x1 : (⟨S2x3200000, .i32⟩ : BufTy).Contents (Elt Ideal)) (x2 : (⟨S256x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (x6 : (⟨S16x8, .f32⟩ : BufTy).Contents (Elt Ideal)) (x7 : (⟨S8, .f32⟩ : BufTy).Contents (Elt Ideal)) (hc : S200000.ShapeCasts S200000x1) (hr : S8.ShapeCasts S1x8) :
    Cert.Gcn.layerOut (M := 200000) (N := 8) (val_main_v115 (F := Ideal) x0 x1 x2 x3 x4 x5 x6) (val_main_v87 (F := Ideal) x0 x1 x2 x3 x4 x5 x6)
        (shapeCast S200000x1 (val_main_v116 (F := Ideal) x1) hc) (shapeCast S1x8 x7 hr)
      = val_main_v124 (F := Ideal) x0 x1 x2 x3 x4 x5 x6 x7 := by
  unfold val_main_v124 val_main_v123 val_main_v120 val_main_v119
  refine Cert.Gcn.layerOut_eq_host _ _ _ _ (val_main_v118 (F := Ideal) x1) (val_main_v122 (F := Ideal) x7) (fun p q => ?_) (fun p q => ?_)
  · unfold val_main_v118 val_main_v117
    rw [Cert.Gcn.col_of_vec, Cert.Gcn.colcast_apply]
  · unfold val_main_v122 val_main_v121
    rw [Cert.Gcn.row_of_vec, Cert.Gcn.rowcast_apply]

/-- The per-node factor and the per-edge factor are recomputed by the reference in every layer: the same terms. -/
theorem fac2 (x1 : (⟨S2x3200000, .i32⟩ : BufTy).Contents (Elt Ideal)) : val_main_v78 (F := Ideal) x1 = val_main_v40 (F := Ideal) x1 := rfl
theorem fac3 (x1 : (⟨S2x3200000, .i32⟩ : BufTy).Contents (Elt Ideal)) : val_main_v116 (F := Ideal) x1 = val_main_v40 (F := Ideal) x1 := rfl
theorem norm2 (x1 : (⟨S2x3200000, .i32⟩ : BufTy).Contents (Elt Ideal)) : val_main_v64 (F := Ideal) x1 = val_main_v26 (F := Ideal) x1 := rfl
theorem norm3 (x1 : (⟨S2x3200000, .i32⟩ : BufTy).Contents (Elt Ideal)) : val_main_v102 (F := Ideal) x1 = val_main_v26 (F := Ideal) x1 := rfl

end Cert.ReferenceIdeal.Stage

end
-- ==== Proof.S1.lean ====
/-
  The idealized kernel's buffers after its first linear stage, the host's gather / scale / scatter-add of the edges, and its
  first combining stage.  The linear stage's output is the reference's first matrix product (a zero bias row adds nothing);
  the host stretch applies to it the very operations the reference applies, so the neighbour sums are the reference's; the
  combining stage's output is the reference's first hidden layer.  Buffers no operation writes in between are carried.
-/
import proofs.«130247_j46978352283765_1_alg».proof.Proof.S0
import proofs.«130247_j46978352283765_1_alg».proof.Proof.Region0
import proofs.«130247_j46978352283765_1_alg».proof.Proof.Region1
import proofs.«130247_j46978352283765_1_alg».proof.Proof.RefStages
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg) (c : Dev nD)
theorem w1_arg6 : W1 m ρ c (Proc.devRef .tc main_arg6) = (m ((c : Thread nD τ).loc main_arg6)) :=
  (show W1 m ρ c (Proc.devRef .tc main_arg6) = W0 m ρ c (Proc.devRef .tc main_arg6) by keep_host hostOps0).trans rfl
theorem w1_arg7 : W1 m ρ c (Proc.devRef .tc main_arg7) = (m ((c : Thread nD τ).loc main_arg7)) :=
  (show W1 m ρ c (Proc.devRef .tc main_arg7) = W0 m ρ c (Proc.devRef .tc main_arg7) by keep_host hostOps0).trans rfl
theorem w1_arg8 : W1 m ρ c (Proc.devRef .tc main_arg8) = (m ((c : Thread nD τ).loc main_arg8)) :=
  (show W1 m ρ c (Proc.devRef .tc main_arg8) = W0 m ρ c (Proc.devRef .tc main_arg8) by keep_host hostOps0).trans rfl
theorem w1_arg9 : W1 m ρ c (Proc.devRef .tc main_arg9) = (m ((c : Thread nD τ).loc main_arg9)) :=
  (show W1 m ρ c (Proc.devRef .tc main_arg9) = W0 m ρ c (Proc.devRef .tc main_arg9) by keep_host hostOps0).trans rfl

/-! ### After region 0 -/

theorem w2_v29 : W2 m ρ c (Proc.devRef .tc main_v29) = val_main_v11 (F := Ideal) (m ((c : Thread nD τ).loc main_arg0)) (m ((c : Thread nD τ).loc main_arg2)) := by
  refine (W2_arr m ρ c 3).trans ((Region0.final (V1 m ρ) c).trans ?_)
  have e0 : V1 m ρ c (Pipeline.arrRef spec0 0) = (m ((c : Thread nD τ).loc main_arg0)) := w1_arg0 m ρ c
  have e1 : V1 m ρ c (Pipeline.arrRef spec0 1) = (m ((c : Thread nD τ).loc main_arg2)) := w1_arg2 m ρ c
  have e2 : V1 m ρ c (Pipeline.arrRef spec0 2) = shapeCast S1x32 (broadcastInDim S32 ![] bcast_S_S32 (constant (F := Ideal) S_ .f32 0x00000000#32)) shapeCasts_S32_S1x32 := w1_v28 m ρ c
  rw [e0, e1]
  exact Cert.ReferenceIdeal.Stage.lin1 (m ((c : Thread nD τ).loc main_arg0)) (m ((c : Thread nD τ).loc main_arg2)) _ (fun q => by rw [e2]; exact Cert.Gcn.zero_row_apply _ _ q)
theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v11 : W2 m ρ c (Proc.devRef .tc main_v11) = val_main_v40 (F := Ideal) (m ((c : Thread nD τ).loc main_arg1)) :=
  (W2_of_ne m ρ c main_v11 (by decide)).trans (w1_v11 m ρ c)
theorem w2_v26 : W2 m ρ c (Proc.devRef .tc main_v26) = val_main_v26 (F := Ideal) (m ((c : Thread nD τ).loc main_arg1)) :=
  (W2_of_ne m ρ c main_v26 (by decide)).trans (w1_v26 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-! ### After the first gather / scatter stretch -/

set_option maxHeartbeats 32000000 in
theorem w3_v42 : W3 m ρ c (Proc.devRef .tc main_v42) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results
  rw [w2_v3 m ρ c, w2_v29 m ρ c, w2_v1 m ρ c, w2_v26 m ρ c]
  rfl

set_option maxHeartbeats 32000000 in
theorem w3_v43 : W3 m ρ c (Proc.devRef .tc main_v43) = shapeCast S1x32 (m ((c : Thread nD τ).loc main_arg3)) shapeCasts_S32_S1x32 := by
  show StableHlo.after hostOps1 (W2 m ρ c) (Proc.devRef .tc main_v43) = _
  after_results
  rw [w2_arg3 m ρ c]
  rfl

set_option maxHeartbeats 32000000 in
theorem w3_v44 : W3 m ρ c (Proc.devRef .tc main_v44) = shapeCast S200000x1 (val_main_v40 (F := Ideal) (m ((c : Thread nD τ).loc main_arg1))) shapeCasts_S200000_S200000x1 := by
  show StableHlo.after hostOps1 (W2 m ρ c) (Proc.devRef .tc main_v44) = _
  after_results
  rw [w2_v11 m ρ c]
  rfl
theorem w3_v29 : W3 m ρ c (Proc.devRef .tc main_v29) = val_main_v11 (F := Ideal) (m ((c : Thread nD τ).loc main_arg0)) (m ((c : Thread nD τ).loc main_arg2)) :=
  (show W3 m ρ c (Proc.devRef .tc main_v29) = W2 m ρ c (Proc.devRef .tc main_v29) by keep_host hostOps1).trans (w2_v29 m ρ c)
theorem w3_v1 : W3 m ρ c (Proc.devRef .tc main_v1) = val_main_v1 (F := Ideal) (m ((c : Thread nD τ).loc main_arg1)) :=
  (show W3 m ρ c (Proc.devRef .tc main_v1) = W2 m ρ c (Proc.devRef .tc main_v1) by keep_host hostOps1).trans (w2_v1 m ρ c)
theorem w3_v3 : W3 m ρ c (Proc.devRef .tc main_v3) = val_main_v3 (F := Ideal) (m ((c : Thread nD τ).loc main_arg1)) :=
  (show W3 m ρ c (Proc.devRef .tc main_v3) = W2 m ρ c (Proc.devRef .tc main_v3) by keep_host hostOps1).trans (w2_v3 m ρ c)
theorem w3_v11 : W3 m ρ c (Proc.devRef .tc main_v11) = val_main_v40 (F := Ideal) (m ((c : Thread nD τ).loc main_arg1)) :=
  (show W3 m ρ c (Proc.devRef .tc main_v11) = W2 m ρ c (Proc.devRef .tc main_v11) by keep_host hostOps1).trans (w2_v11 m ρ c)
theorem w3_v26 : W3 m ρ c (Proc.devRef .tc main_v26) = val_main_v26 (F := Ideal) (m ((c : Thread nD τ).loc main_arg1)) :=
  (show W3 m ρ c (Proc.devRef .tc main_v26) = W2 m ρ c (Proc.devRef .tc main_v26) by keep_host hostOps1).trans (w2_v26 m ρ c)
theorem w3_arg4 : W3 m ρ c (Proc.devRef .tc main_arg4) = (m ((c : Thread nD τ).loc main_arg4)) :=
  (show W3 m ρ c (Proc.devRef .tc main_arg4) = W2 m ρ c (Proc.devRef .tc main_arg4) by keep_host hostOps1).trans (w2_arg4 m ρ c)
theorem w3_arg5 : W3 m ρ c (Proc.devRef .tc main_arg5) = (m ((c : Thread nD τ).loc main_arg5)) :=
  (show W3 m ρ c (Proc.devRef .tc main_arg5) = W2 m ρ c (Proc.devRef .tc main_arg5) by keep_host hostOps1).trans (w2_arg5 m ρ c)
theorem w3_arg6 : W3 m ρ c (Proc.devRef .tc main_arg6) = (m ((c : Thread nD τ).loc main_arg6)) :=
  (show W3 m ρ c (Proc.devRef .tc main_arg6) = W2 m ρ c (Proc.devRef .tc main_arg6) by keep_host hostOps1).trans (w2_arg6 m ρ c)
theorem w3_arg7 : W3 m ρ c (Proc.devRef .tc main_arg7) = (m ((c : Thread nD τ).loc main_arg7)) :=
  (show W3 m ρ c (Proc.devRef .tc main_arg7) = W2 m ρ c (Proc.devRef .tc main_arg7) by keep_host hostOps1).trans (w2_arg7 m ρ c)
theorem w3_arg8 : W3 m ρ c (Proc.devRef .tc main_arg8) = (m ((c : Thread nD τ).loc main_arg8)) :=
  (show W3 m ρ c (Proc.devRef .tc main_arg8) = W2 m ρ c (Proc.devRef .tc main_arg8) by keep_host hostOps1).trans (w2_arg8 m ρ c)
theorem w3_arg9 : W3 m ρ c (Proc.devRef .tc main_arg9) = (m ((c : Thread nD τ).loc main_arg9)) :=
  (show W3 m ρ c (Proc.devRef .tc main_arg9) = W2 m ρ c (Proc.devRef .tc main_arg9) by keep_host hostOps1).trans (w2_arg9 m ρ c)

/-! ### After region 1 -/

theorem w4_v45 : W4 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Region1.final (V3 m ρ) c).trans ?_)
  have e0 := w3_v42 m ρ c
  have e1 := w3_v29 m ρ c
  have e2 := w3_v44 m ρ c
  have e3 := w3_v43 m ρ c
  rw [show V3 m ρ c (Pipeline.arrRef spec1 0) = _ from e0, show V3 m ρ c (Pipeline.arrRef spec1 1) = _ from e1,
    show V3 m ρ c (Pipeline.arrRef spec1 2) = _ from e2, show V3 m ρ c (Pipeline.arrRef spec1 3) = _ from e3]
  exact Cert.ReferenceIdeal.Stage.layer1 (m ((c : Thread nD τ).loc main_arg0)) (m ((c : Thread nD τ).loc main_arg1)) (m ((c : Thread nD τ).loc main_arg2)) (m ((c : Thread nD τ).loc main_arg3)) _ _
theorem w4_v1 : W4 m ρ c (Proc.devRef .tc main_v1) = val_main_v1 (F := Ideal) (m ((c : Thread nD τ).loc main_arg1)) :=
  (W4_of_ne m ρ c main_v1 (by decide)).trans (w3_v1 m ρ c)
theorem w4_v3 : W4 m ρ c (Proc.devRef .tc main_v3) = val_main_v3 (F := Ideal) (m ((c : Thread nD τ).loc main_arg1)) :=
  (W4_of_ne m ρ c main_v3 (by decide)).trans (w3_v3 m ρ c)
theorem w4_v11 : W4 m ρ c (Proc.devRef .tc main_v11) = val_main_v40 (F := Ideal) (m ((c : Thread nD τ).loc main_arg1)) :=
  (W4_of_ne m ρ c main_v11 (by decide)).trans (w3_v11 m ρ c)
theorem w4_v26 : W4 m ρ c (Proc.devRef .tc main_v26) = val_main_v26 (F := Ideal) (m ((c : Thread nD τ).loc main_arg1)) :=
  (W4_of_ne m ρ c main_v26 (by decide)).trans (w3_v26 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)

end Cert.KernelIdeal.Stages

end
-- ==== Proof.Region2.lean ====
/-
  Region 2 of the idealized kernel: a linear stage.  The grid has 25 points; point t takes rows 8000·t … 8000·t + 7999 of
  the [200000,32] input, the whole [32,16] matrix and the whole one-row [1,16] array, and writes the same rows of the
  [200000,16] output.  Its body is `affine` of the blocks, an entry of `affine` depends only on its own row of the input, and
  the 25 row blocks tile the output: so whatever the buffers hold when the region is entered, the output array ends
  as `affine` of the three whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `affine` of the loaded blocks. -/
theorem pay_eq (x0 : Vec Ideal S8000x32 .f32) (x1 : Vec Ideal S32x16 .f32) (x2 : Vec Ideal S1x16 .f32) :
    k2_pay1 x0 x1 x2 = Cert.Gcn.affine (M := 8000) (K := 32) (N := 16) x0 x1 x2 := by
  unfold k2_pay1
  rw [shapeCast_self (s := S8000x32)]
  exact Cert.Gcn.affine_body _ .bf16 _ _ _ x0 x1 x2

/-- The printed index maps over the grid: the input's row block moves with the output's, every other block index is 0. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) < 25 :=
  (by decide +kernel : ∀ t : Fin grid2.N, _)

/-- Every one of the 25 row blocks is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

set_option maxHeartbeats 4000000 in
/-- What point `t` writes back is block `t` of `affine` of the whole arrays. -/
theorem flushed (c : Dev nD) (t : Fin cfg2.N) :
    (dat2 V c).flushed 3 t = ((cfg2.win 3).blk t).view.read (Elt Ideal) (Cert.Gcn.affine (M := 200000) (K := 32) (N := 16) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S8000x32) hz, View.ld_unit_zero (S := S32x16) hz, View.ld_unit_zero (S := S1x16) hz]
  rw [pay_eq]
  obtain ⟨e0, e1, e2, e3, e4, e5, e6, e7⟩ := idx_facts t
  funext y
  show Cert.Gcn.affine (M := 8000) (K := 32) (N := 16) (iblk2 V c 0 t) (iblk2 V c 1 t) (iblk2 V c 2 t) y
    = Cert.Gcn.affine (M := 200000) (K := 32) (N := 16) (V c (Pipeline.arrRef spec2 0)) (V c (Pipeline.arrRef spec2 1)) (V c (Pipeline.arrRef spec2 2)) (((cfg2.win 3).blk t).view.emb y)
  unfold Cert.Gcn.affine
  have hy0 : (y 0).val < 8000 := (y 0).isLt
  have hy1 : (y 1).val < 16 := (y 1).isLt
  refine congrArg₂ (· + ·) (Finset.sum_congr rfl fun k _ => congrArg₂ (· * ·) ?_ ?_) ?_
  · show (V c (Pipeline.arrRef spec2 0)) (((cfg2.win 0).blk t).view.emb (ix2 (y 0) k)) = (V c (Pipeline.arrRef spec2 0)) (ix2 ((((cfg2.win 3).blk t).view.emb y) 0) k)
    refine congrArg (V c (Pipeline.arrRef spec2 0)) (funext fun a => Fin.ext ?_)
    match a with
    | ⟨0, _⟩ => show win2_0.index t (0 : Fin 2) * 8000 + 1 * (y 0).val = win2_3.index t (0 : Fin 2) * 8000 + 1 * (y 0).val; omega
    | ⟨1, _⟩ => show win2_0.index t (1 : Fin 2) * 32 + 1 * k.val = k.val; omega
  · show (V c (Pipeline.arrRef spec2 1)) (((cfg2.win 1).blk t).view.emb (ix2 k (y 1))) = (V c (Pipeline.arrRef spec2 1)) (ix2 k ((((cfg2.win 3).blk t).view.emb y) 1))
    refine congrArg (V c (Pipeline.arrRef spec2 1)) (funext fun a => Fin.ext ?_)
    match a with
    | ⟨0, _⟩ => show win2_1.index t (0 : Fin 2) * 32 + 1 * k.val = k.val; omega
    | ⟨1, _⟩ => show win2_1.index t (1 : Fin 2) * 16 + 1 * (y 1).val = win2_3.index t (1 : Fin 2) * 16 + 1 * (y 1).val; omega
  · show (V c (Pipeline.arrRef spec2 2)) (((cfg2.win 2).blk t).view.emb (ix2 (0 : Fin 1) (y 1))) = (V c (Pipeline.arrRef spec2 2)) (ix2 (0 : Fin 1) ((((cfg2.win 3).blk t).view.emb y) 1))
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 16 + 1 * (y 1).val = win2_3.index t (1 : Fin 2) * 16 + 1 * (y 1).val; omega

/-- An index of the output array is in point `t`'s block iff each coordinate is in the block's range on its axis. -/
theorem mem_blk (t : Fin cfg2.N) (i : S200000x16.Idx) :
    i ∈ ((cfg2.win 3).blk t).view.set ↔ ∀ a : Fin 2, win2_3.index t a * S8000x16.size a ≤ (i a).val ∧ (i a).val < win2_3.index t a * S8000x16.size a + S8000x16.size a := by
  show i ∈ ((View.whole main_v48).slice (win2_3.rect t)).set ↔ _
  rw [View.set_slice_whole, Rect.mem_set_unit]
  exact Iff.rfl

/-- Row r of the output lies in the block of the point whose row-block index is r / 8000. -/
theorem cover (i : S200000x16.Idx) : ∃ t : Fin cfg2.N, (cfg2.win 3).flush t = true ∧ i ∈ ((cfg2.win 3).blk t).view.set := by
  have hi0 : (i 0).val < 200000 := (i 0).isLt
  have hi1 : (i 1).val < 16 := (i 1).isLt
  obtain ⟨t, ht⟩ := idx_onto ⟨(i 0).val / 8000, by omega⟩
  have q0 : win2_3.index t (0 : Fin 2) = (i 0).val / 8000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 16 ≤ (i 1).val ∧ (i 1).val < win2_3.index t (1 : Fin 2) * 16 + 16; omega

/-- The output array after the region: `affine` of the three input arrays as the region found them. -/
theorem final (c : Dev nD) : (dat2 V c).arrAt 3 cfg2.N = (Cert.Gcn.affine (M := 200000) (K := 32) (N := 16) (V c (Pipeline.arrRef spec2 0)) (V c (Pipeline.arrRef spec2 1)) (V c (Pipeline.arrRef spec2 2))) :=
  (dat2 V c).arrAt_eq_of_cover 3 (Cert.Gcn.affine (M := 200000) (K := 32) (N := 16) (V c (Pipeline.arrRef spec2 0)) (V c (Pipeline.arrRef spec2 1)) (V c (Pipeline.arrRef spec2 2))) (fun t _ => flushed V c t) cover

end Cert.KernelIdeal.Region2

end
-- ==== Proof.Region3.lean ====
/-
  Region 3 of the idealized kernel: a combining stage.  The grid has 25 points; point t takes rows 8000·t … 8000·t + 7999
  of the neighbour sums [200000,16], of the node's own rows [200000,16] and of the one-column factor array [200000,1], the whole
  one-row bias [1,16], and writes the same rows of the [200000,16] output.  Its body is `layerOut` of the blocks, an entry of
  `layerOut` depends only on its own row, and the 25 row blocks tile the output: so whatever the buffers hold when the
  region is entered, the output array ends as `layerOut` of the four whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `layerOut` of the loaded blocks. -/
theorem pay_eq (x0 x1 : Vec Ideal S8000x16 .f32) (x2 : Vec Ideal S8000x1 .f32) (x3 : Vec Ideal S1x16 .f32) :
    k3_pay1 x0 x1 x2 x3 = Cert.Gcn.layerOut (M := 8000) (N := 16) x0 x1 x2 x3 := by
  unfold k3_pay1
  exact Cert.Gcn.layer_body _ _ _ _ _ x0 x1 x2 x3

/-- The printed index maps over the grid: the three row-blocked inputs move with the output, every other block index is 0. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) < 25 :=
  (by decide +kernel : ∀ t : Fin grid3.N, _)

/-- Every one of the 25 row blocks is some point's. -/
theorem idx_onto : ∀ q0 : Fin 25, ∃ t : Fin cfg3.N, win3_4.index t = ![q0.val, 0] :=
  (by decide +kernel : ∀ q0 : Fin 25, ∃ t : Fin grid3.N, win3_4.index t = ![q0.val, 0])

set_option maxHeartbeats 4000000 in
/-- What point `t` writes back is block `t` of `layerOut` of the whole arrays. -/
theorem flushed (c : Dev nD) (t : Fin cfg3.N) :
    (dat3 V c).flushed 4 t = ((cfg3.win 4).blk t).view.read (Elt Ideal) (Cert.Gcn.layerOut (M := 200000) (N := 16) (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S8000x16) hz, View.ld_unit_zero (S := S8000x1) hz, View.ld_unit_zero (S := S1x16) hz]
  rw [pay_eq]
  obtain ⟨e0, e1, e2, e3, e4, e5, e6, e7, e8, e9⟩ := idx_facts t
  funext y
  show Cert.Gcn.layerOut (M := 8000) (N := 16) (iblk3 V c 0 t) (iblk3 V c 1 t) (iblk3 V c 2 t) (iblk3 V c 3 t) y
    = Cert.Gcn.layerOut (M := 200000) (N := 16) (V c (Pipeline.arrRef spec3 0)) (V c (Pipeline.arrRef spec3 1)) (V c (Pipeline.arrRef spec3 2)) (V c (Pipeline.arrRef spec3 3)) (((cfg3.win 4).blk t).view.emb y)
  unfold Cert.Gcn.layerOut
  have hy0 : (y 0).val < 8000 := (y 0).isLt
  have hy1 : (y 1).val < 16 := (y 1).isLt
  refine congrArg Ideal.tanh (congrArg₂ (· + ·) (congrArg₂ (· + ·) ?_ (congrArg₂ (· * ·) ?_ ?_)) ?_)
  · show (V c (Pipeline.arrRef spec3 0)) (((cfg3.win 0).blk t).view.emb y) = (V c (Pipeline.arrRef spec3 0)) (((cfg3.win 4).blk t).view.emb y)
    refine congrArg (V c (Pipeline.arrRef spec3 0)) (funext fun a => Fin.ext ?_)
    match a with
    | ⟨0, _⟩ => show win3_0.index t (0 : Fin 2) * 8000 + 1 * (y 0).val = win3_4.index t (0 : Fin 2) * 8000 + 1 * (y 0).val; omega
    | ⟨1, _⟩ => show win3_0.index t (1 : Fin 2) * 16 + 1 * (y 1).val = win3_4.index t (1 : Fin 2) * 16 + 1 * (y 1).val; omega
  · show (V c (Pipeline.arrRef spec3 1)) (((cfg3.win 1).blk t).view.emb y) = (V c (Pipeline.arrRef spec3 1)) (((cfg3.win 4).blk t).view.emb y)
    refine congrArg (V c (Pipeline.arrRef spec3 1)) (funext fun a => Fin.ext ?_)
    match a with
    | ⟨0, _⟩ => show win3_1.index t (0 : Fin 2) * 8000 + 1 * (y 0).val = win3_4.index t (0 : Fin 2) * 8000 + 1 * (y 0).val; omega
    | ⟨1, _⟩ => show win3_1.index t (1 : Fin 2) * 16 + 1 * (y 1).val = win3_4.index t (1 : Fin 2) * 16 + 1 * (y 1).val; omega
  · show (V c (Pipeline.arrRef spec3 2)) (((cfg3.win 2).blk t).view.emb (ix2 (y 0) (0 : Fin 1))) = (V c (Pipeline.arrRef spec3 2)) (ix2 ((((cfg3.win 4).blk t).view.emb y) 0) (0 : Fin 1))
    refine congrArg (V c (Pipeline.arrRef spec3 2)) (funext fun a => Fin.ext ?_)
    match a with
    | ⟨0, _⟩ => show win3_2.index t (0 : Fin 2) * 8000 + 1 * (y 0).val = win3_4.index t (0 : Fin 2) * 8000 + 1 * (y 0).val; omega
    | ⟨1, _⟩ => show win3_2.index t (1 : Fin 2) * 1 + 1 * 0 = 0; omega
  · show (V c (Pipeline.arrRef spec3 3)) (((cfg3.win 3).blk t).view.emb (ix2 (0 : Fin 1) (y 1))) = (V c (Pipeline.arrRef spec3 3)) (ix2 (0 : Fin 1) ((((cfg3.win 4).blk t).view.emb y) 1))
    refine congrArg (V c (Pipeline.arrRef spec3 3)) (funext fun a => Fin.ext ?_)
    match a with
    | ⟨0, _⟩ => show win3_3.index t (0 : Fin 2) * 1 + 1 * 0 = 0; omega
    | ⟨1, _⟩ => show win3_3.index t (1 : Fin 2) * 16 + 1 * (y 1).val = win3_4.index t (1 : Fin 2) * 16 + 1 * (y 1).val; omega

/-- An index of the output array is in point `t`'s block iff each coordinate is in the block's range on its axis. -/
theorem mem_blk (t : Fin cfg3.N) (i : S200000x16.Idx) :
    i ∈ ((cfg3.win 4).blk t).view.set ↔ ∀ a : Fin 2, win3_4.index t a * S8000x16.size a ≤ (i a).val ∧ (i a).val < win3_4.index t a * S8000x16.size a + S8000x16.size a := by
  show i ∈ ((View.whole main_v64).slice (win3_4.rect t)).set ↔ _
  rw [View.set_slice_whole, Rect.mem_set_unit]
  exact Iff.rfl

/-- Row r of the output lies in the block of the point whose row-block index is r / 8000. -/
theorem cover (i : S200000x16.Idx) : ∃ t : Fin cfg3.N, (cfg3.win 4).flush t = true ∧ i ∈ ((cfg3.win 4).blk t).view.set := by
  have hi0 : (i 0).val < 200000 := (i 0).isLt
  have hi1 : (i 1).val < 16 := (i 1).isLt
  obtain ⟨t, ht⟩ := idx_onto ⟨(i 0).val / 8000, by omega⟩
  have q0 : win3_4.index t (0 : Fin 2) = (i 0).val / 8000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 8000 ≤ (i 0).val ∧ (i 0).val < win3_4.index t (0 : Fin 2) * 8000 + 8000; omega
  | ⟨1, _⟩ => show win3_4.index t (1 : Fin 2) * 16 ≤ (i 1).val ∧ (i 1).val < win3_4.index t (1 : Fin 2) * 16 + 16; omega

/-- The output array after the region: `layerOut` of the four input arrays as the region found them. -/
theorem final (c : Dev nD) : (dat3 V c).arrAt 4 cfg3.N = (Cert.Gcn.layerOut (M := 200000) (N := 16) (V c (Pipeline.arrRef spec3 0)) (V c (Pipeline.arrRef spec3 1)) (V c (Pipeline.arrRef spec3 2)) (V c (Pipeline.arrRef spec3 3))) :=
  (dat3 V c).arrAt_eq_of_cover 4 (Cert.Gcn.layerOut (M := 200000) (N := 16) (V c (Pipeline.arrRef spec3 0)) (V c (Pipeline.arrRef spec3 1)) (V c (Pipeline.arrRef spec3 2)) (V c (Pipeline.arrRef spec3 3))) (fun t _ => flushed V c t) cover

end Cert.KernelIdeal.Region3

end
-- ==== Proof.S2.lean ====
/-
  The idealized kernel's buffers through its second layer: a row of zeros, the second linear stage (the reference's
  second matrix product), the host's gather / scale / scatter-add of the edges (the reference's second neighbour sums), and
  the second combining stage (the reference's second hidden layer).  Buffers no operation writes in between are carried.
-/
import proofs.«130247_j46978352283765_1_alg».proof.Proof.S1
import proofs.«130247_j46978352283765_1_alg».proof.Proof.Region2
import proofs.«130247_j46978352283765_1_alg».proof.Proof.Region3
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg) (c : Dev nD)

/-! ### After the zero-row stretch -/

set_option maxHeartbeats 32000000 in
theorem w5_v47 : W5 m ρ c (Proc.devRef .tc main_v47) = shapeCast S1x16 (broadcastInDim S16 ![] bcast_S_S16 (constant (F := Ideal) S_ .f32 0x00000000#32)) shapeCasts_S16_S1x16 := by
  show StableHlo.after hostOps2 (W4 m ρ c) (Proc.devRef .tc main_v47) = _
  after_results
  rfl
theorem w5_v45 : W5 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) :=
  (show W5 m ρ c (Proc.devRef .tc main_v45) = W4 m ρ c (Proc.devRef .tc main_v45) by keep_host hostOps2).trans (w4_v45 m ρ c)
theorem w5_v1 : W5 m ρ c (Proc.devRef .tc main_v1) = val_main_v1 (F := Ideal) (m ((c : Thread nD τ).loc main_arg1)) :=
  (show W5 m ρ c (Proc.devRef .tc main_v1) = W4 m ρ c (Proc.devRef .tc main_v1) by keep_host hostOps2).trans (w4_v1 m ρ c)
theorem w5_v3 : W5 m ρ c (Proc.devRef .tc main_v3) = val_main_v3 (F := Ideal) (m ((c : Thread nD τ).loc main_arg1)) :=
  (show W5 m ρ c (Proc.devRef .tc main_v3) = W4 m ρ c (Proc.devRef .tc main_v3) by keep_host hostOps2).trans (w4_v3 m ρ c)
theorem w5_v11 : W5 m ρ c (Proc.devRef .tc main_v11) = val_main_v40 (F := Ideal) (m ((c : Thread nD τ).loc main_arg1)) :=
  (show W5 m ρ c (Proc.devRef .tc main_v11) = W4 m ρ c (Proc.devRef .tc main_v11) by keep_host hostOps2).trans (w4_v11 m ρ c)
theorem w5_v26 : W5 m ρ c (Proc.devRef .tc main_v26) = val_main_v26 (F := Ideal) (m ((c : Thread nD τ).loc main_arg1)) :=
  (show W5 m ρ c (Proc.devRef .tc main_v26) = W4 m ρ c (Proc.devRef .tc main_v26) by keep_host hostOps2).trans (w4_v26 m ρ c)
theorem w5_arg4 : W5 m ρ c (Proc.devRef .tc main_arg4) = (m ((c : Thread nD τ).loc main_arg4)) :=
  (show W5 m ρ c (Proc.devRef .tc main_arg4) = W4 m ρ c (Proc.devRef .tc main_arg4) by keep_host hostOps2).trans (w4_arg4 m ρ c)
theorem w5_arg5 : W5 m ρ c (Proc.devRef .tc main_arg5) = (m ((c : Thread nD τ).loc main_arg5)) :=
  (show W5 m ρ c (Proc.devRef .tc main_arg5) = W4 m ρ c (Proc.devRef .tc main_arg5) by keep_host hostOps2).trans (w4_arg5 m ρ c)
theorem w5_arg6 : W5 m ρ c (Proc.devRef .tc main_arg6) = (m ((c : Thread nD τ).loc main_arg6)) :=
  (show W5 m ρ c (Proc.devRef .tc main_arg6) = W4 m ρ c (Proc.devRef .tc main_arg6) by keep_host hostOps2).trans (w4_arg6 m ρ c)
theorem w5_arg7 : W5 m ρ c (Proc.devRef .tc main_arg7) = (m ((c : Thread nD τ).loc main_arg7)) :=
  (show W5 m ρ c (Proc.devRef .tc main_arg7) = W4 m ρ c (Proc.devRef .tc main_arg7) by keep_host hostOps2).trans (w4_arg7 m ρ c)
theorem w5_arg8 : W5 m ρ c (Proc.devRef .tc main_arg8) = (m ((c : Thread nD τ).loc main_arg8)) :=
  (show W5 m ρ c (Proc.devRef .tc main_arg8) = W4 m ρ c (Proc.devRef .tc main_arg8) by keep_host hostOps2).trans (w4_arg8 m ρ c)
theorem w5_arg9 : W5 m ρ c (Proc.devRef .tc main_arg9) = (m ((c : Thread nD τ).loc main_arg9)) :=
  (show W5 m ρ c (Proc.devRef .tc main_arg9) = W4 m ρ c (Proc.devRef .tc main_arg9) by keep_host hostOps2).trans (w4_arg9 m ρ c)

/-! ### After region 2 -/

theorem w6_v48 : W6 m ρ c (Proc.devRef .tc main_v48) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Region2.final (V5 m ρ) c).trans ?_)
  have e0 : V5 m ρ c (Pipeline.arrRef spec2 0) = val_main_v48 (F := Ideal) (m ((c : Thread nD τ).loc main_arg0)) (m ((c : Thread nD τ).loc main_arg1)) (m ((c : Thread nD τ).loc main_arg2)) (m ((c : Thread nD τ).loc main_arg3)) := w5_v45 m ρ c
  have e1 : V5 m ρ c (Pipeline.arrRef spec2 1) = (m ((c : Thread nD τ).loc main_arg4)) := w5_arg4 m ρ c
  have e2 : V5 m ρ c (Pipeline.arrRef spec2 2) = shapeCast S1x16 (broadcastInDim S16 ![] bcast_S_S16 (constant (F := Ideal) S_ .f32 0x00000000#32)) shapeCasts_S16_S1x16 := w5_v47 m ρ c
  rw [e0, e1]
  exact Cert.ReferenceIdeal.Stage.lin2 (m ((c : Thread nD τ).loc main_arg0)) (m ((c : Thread nD τ).loc main_arg1)) (m ((c : Thread nD τ).loc main_arg2)) (m ((c : Thread nD τ).loc main_arg3)) (m ((c : Thread nD τ).loc main_arg4)) _ (fun q => by rw [e2]; exact Cert.Gcn.zero_row_apply _ _ q)
theorem w6_v1 : W6 m ρ c (Proc.devRef .tc main_v1) = val_main_v1 (F := Ideal) (m ((c : Thread nD τ).loc main_arg1)) :=
  (W6_of_ne m ρ c main_v1 (by decide)).trans (w5_v1 m ρ c)
theorem w6_v3 : W6 m ρ c (Proc.devRef .tc main_v3) = val_main_v3 (F := Ideal) (m ((c : Thread nD τ).loc main_arg1)) :=
  (W6_of_ne m ρ c main_v3 (by decide)).trans (w5_v3 m ρ c)
theorem w6_v11 : W6 m ρ c (Proc.devRef .tc main_v11) = val_main_v40 (F := Ideal) (m ((c : Thread nD τ).loc main_arg1)) :=
  (W6_of_ne m ρ c main_v11 (by decide)).trans (w5_v11 m ρ c)
theorem w6_v26 : W6 m ρ c (Proc.devRef .tc main_v26) = val_main_v26 (F := Ideal) (m ((c : Thread nD τ).loc main_arg1)) :=
  (W6_of_ne m ρ c main_v26 (by decide)).trans (w5_v26 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)
theorem w6_arg9 : W6 m ρ c (Proc.devRef .tc main_arg9) = (m ((c : Thread nD τ).loc main_arg9)) :=
  (W6_of_ne m ρ c main_arg9 (by decide)).trans (w5_arg9 m ρ c)

/-! ### After the second gather / scatter stretch -/

set_option maxHeartbeats 32000000 in
theorem w7_v61 : W7 m ρ c (Proc.devRef .tc main_v61) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v61) = _
  after_results
  rw [w6_v3 m ρ c, w6_v48 m ρ c, w6_v1 m ρ c, w6_v26 m ρ c]
  rfl

set_option maxHeartbeats 32000000 in
theorem w7_v62 : W7 m ρ c (Proc.devRef .tc main_v62) = shapeCast S1x16 (m ((c : Thread nD τ).loc main_arg5)) shapeCasts_S16_S1x16 := by
  show StableHlo.after hostOps3 (W6 m ρ c) (Proc.devRef .tc main_v62) = _
  after_results
  rw [w6_arg5 m ρ c]
  rfl

set_option maxHeartbeats 32000000 in
theorem w7_v63 : W7 m ρ c (Proc.devRef .tc main_v63) = shapeCast S200000x1 (val_main_v78 (F := Ideal) (m ((c : Thread nD τ).loc main_arg1))) shapeCasts_S200000_S200000x1 := by
  show StableHlo.after hostOps3 (W6 m ρ c) (Proc.devRef .tc main_v63) = _
  after_results
  rw [w6_v11 m ρ c]
  rfl
theorem w7_v48 : W7 m ρ c (Proc.devRef .tc main_v48) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show W7 m ρ c (Proc.devRef .tc main_v48) = W6 m ρ c (Proc.devRef .tc main_v48) by keep_host hostOps3).trans (w6_v48 m ρ c)
theorem w7_v1 : W7 m ρ c (Proc.devRef .tc main_v1) = val_main_v1 (F := Ideal) (m ((c : Thread nD τ).loc main_arg1)) :=
  (show W7 m ρ c (Proc.devRef .tc main_v1) = W6 m ρ c (Proc.devRef .tc main_v1) by keep_host hostOps3).trans (w6_v1 m ρ c)
theorem w7_v3 : W7 m ρ c (Proc.devRef .tc main_v3) = val_main_v3 (F := Ideal) (m ((c : Thread nD τ).loc main_arg1)) :=
  (show W7 m ρ c (Proc.devRef .tc main_v3) = W6 m ρ c (Proc.devRef .tc main_v3) by keep_host hostOps3).trans (w6_v3 m ρ c)
theorem w7_v11 : W7 m ρ c (Proc.devRef .tc main_v11) = val_main_v40 (F := Ideal) (m ((c : Thread nD τ).loc main_arg1)) :=
  (show W7 m ρ c (Proc.devRef .tc main_v11) = W6 m ρ c (Proc.devRef .tc main_v11) by keep_host hostOps3).trans (w6_v11 m ρ c)
theorem w7_v26 : W7 m ρ c (Proc.devRef .tc main_v26) = val_main_v26 (F := Ideal) (m ((c : Thread nD τ).loc main_arg1)) :=
  (show W7 m ρ c (Proc.devRef .tc main_v26) = W6 m ρ c (Proc.devRef .tc main_v26) by keep_host hostOps3).trans (w6_v26 m ρ c)
theorem w7_arg6 : W7 m ρ c (Proc.devRef .tc main_arg6) = (m ((c : Thread nD τ).loc main_arg6)) :=
  (show W7 m ρ c (Proc.devRef .tc main_arg6) = W6 m ρ c (Proc.devRef .tc main_arg6) by keep_host hostOps3).trans (w6_arg6 m ρ c)
theorem w7_arg7 : W7 m ρ c (Proc.devRef .tc main_arg7) = (m ((c : Thread nD τ).loc main_arg7)) :=
  (show W7 m ρ c (Proc.devRef .tc main_arg7) = W6 m ρ c (Proc.devRef .tc main_arg7) by keep_host hostOps3).trans (w6_arg7 m ρ c)
theorem w7_arg8 : W7 m ρ c (Proc.devRef .tc main_arg8) = (m ((c : Thread nD τ).loc main_arg8)) :=
  (show W7 m ρ c (Proc.devRef .tc main_arg8) = W6 m ρ c (Proc.devRef .tc main_arg8) by keep_host hostOps3).trans (w6_arg8 m ρ c)
theorem w7_arg9 : W7 m ρ c (Proc.devRef .tc main_arg9) = (m ((c : Thread nD τ).loc main_arg9)) :=
  (show W7 m ρ c (Proc.devRef .tc main_arg9) = W6 m ρ c (Proc.devRef .tc main_arg9) by keep_host hostOps3).trans (w6_arg9 m ρ c)

/-! ### After region 3 -/

theorem w8_v64 : W8 m ρ c (Proc.devRef .tc main_v64) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((Region3.final (V7 m ρ) c).trans ?_)
  have e0 := w7_v61 m ρ c
  have e1 := w7_v48 m ρ c
  have e2 := w7_v63 m ρ c
  have e3 := w7_v62 m ρ c
  rw [show V7 m ρ c (Pipeline.arrRef spec3 0) = _ from e0, show V7 m ρ c (Pipeline.arrRef spec3 1) = _ from e1,
    show V7 m ρ c (Pipeline.arrRef spec3 2) = _ from e2, show V7 m ρ c (Pipeline.arrRef spec3 3) = _ from e3]
  exact Cert.ReferenceIdeal.Stage.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _
theorem w8_v1 : W8 m ρ c (Proc.devRef .tc main_v1) = val_main_v1 (F := Ideal) (m ((c : Thread nD τ).loc main_arg1)) :=
  (W8_of_ne m ρ c main_v1 (by decide)).trans (w7_v1 m ρ c)
theorem w8_v3 : W8 m ρ c (Proc.devRef .tc main_v3) = val_main_v3 (F := Ideal) (m ((c : Thread nD τ).loc main_arg1)) :=
  (W8_of_ne m ρ c main_v3 (by decide)).trans (w7_v3 m ρ c)
theorem w8_v11 : W8 m ρ c (Proc.devRef .tc main_v11) = val_main_v40 (F := Ideal) (m ((c : Thread nD τ).loc main_arg1)) :=
  (W8_of_ne m ρ c main_v11 (by decide)).trans (w7_v11 m ρ c)
theorem w8_v26 : W8 m ρ c (Proc.devRef .tc main_v26) = val_main_v26 (F := Ideal) (m ((c : Thread nD τ).loc main_arg1)) :=
  (W8_of_ne m ρ c main_v26 (by decide)).trans (w7_v26 m ρ c)
theorem w8_arg6 : W8 m ρ c (Proc.devRef .tc main_arg6) = (m ((c : Thread nD τ).loc main_arg6)) :=
  (W8_of_ne m ρ c main_arg6 (by decide)).trans (w7_arg6 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_arg9 : W8 m ρ c (Proc.devRef .tc main_arg9) = (m ((c : Thread nD τ).loc main_arg9)) :=
  (W8_of_ne m ρ c main_arg9 (by decide)).trans (w7_arg9 m ρ c)

end Cert.KernelIdeal.Stages

end
-- ==== Proof.Region4.lean ====
/-
  Region 4 of the idealized kernel: a linear stage.  The grid has 25 points; point t takes rows 8000·t … 8000·t + 7999 of
  the [200000,16] input, the whole [16,8] matrix and the whole one-row [1,8] array, and writes the same rows of the
  [200000,8] output.  Its body is `affine` of the blocks, an entry of `affine` depends only on its own row of the input, and
  the 25 row blocks tile the output: so whatever the buffers hold when the region is entered, the output array ends
  as `affine` of the three whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `affine` of the loaded blocks. -/
theorem pay_eq (x0 : Vec Ideal S8000x16 .f32) (x1 : Vec Ideal S16x8 .f32) (x2 : Vec Ideal S1x8 .f32) :
    k4_pay1 x0 x1 x2 = Cert.Gcn.affine (M := 8000) (K := 16) (N := 8) x0 x1 x2 := by
  unfold k4_pay1
  rw [shapeCast_self (s := S8000x16)]
  exact Cert.Gcn.affine_body _ .bf16 _ _ _ x0 x1 x2

/-- The printed index maps over the grid: the input's row block moves with the output's, every other block index is 0. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) < 25 :=
  (by decide +kernel : ∀ t : Fin grid4.N, _)

/-- Every one of the 25 row blocks is some point's. -/
theorem idx_onto : ∀ q0 : Fin 25, ∃ t : Fin cfg4.N, win4_3.index t = ![q0.val, 0] :=
  (by decide +kernel : ∀ q0 : Fin 25, ∃ t : Fin grid4.N, win4_3.index t = ![q0.val, 0])

set_option maxHeartbeats 4000000 in
/-- What point `t` writes back is block `t` of `affine` of the whole arrays. -/
theorem flushed (c : Dev nD) (t : Fin cfg4.N) :
    (dat4 V c).flushed 3 t = ((cfg4.win 3).blk t).view.read (Elt Ideal) (Cert.Gcn.affine (M := 200000) (K := 16) (N := 8) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S8000x16) hz, View.ld_unit_zero (S := S16x8) hz, View.ld_unit_zero (S := S1x8) hz]
  rw [pay_eq]
  obtain ⟨e0, e1, e2, e3, e4, e5, e6, e7⟩ := idx_facts t
  funext y
  show Cert.Gcn.affine (M := 8000) (K := 16) (N := 8) (iblk4 V c 0 t) (iblk4 V c 1 t) (iblk4 V c 2 t) y
    = Cert.Gcn.affine (M := 200000) (K := 16) (N := 8) (V c (Pipeline.arrRef spec4 0)) (V c (Pipeline.arrRef spec4 1)) (V c (Pipeline.arrRef spec4 2)) (((cfg4.win 3).blk t).view.emb y)
  unfold Cert.Gcn.affine
  have hy0 : (y 0).val < 8000 := (y 0).isLt
  have hy1 : (y 1).val < 8 := (y 1).isLt
  refine congrArg₂ (· + ·) (Finset.sum_congr rfl fun k _ => congrArg₂ (· * ·) ?_ ?_) ?_
  · show (V c (Pipeline.arrRef spec4 0)) (((cfg4.win 0).blk t).view.emb (ix2 (y 0) k)) = (V c (Pipeline.arrRef spec4 0)) (ix2 ((((cfg4.win 3).blk t).view.emb y) 0) k)
    refine congrArg (V c (Pipeline.arrRef spec4 0)) (funext fun a => Fin.ext ?_)
    match a with
    | ⟨0, _⟩ => show win4_0.index t (0 : Fin 2) * 8000 + 1 * (y 0).val = win4_3.index t (0 : Fin 2) * 8000 + 1 * (y 0).val; omega
    | ⟨1, _⟩ => show win4_0.index t (1 : Fin 2) * 16 + 1 * k.val = k.val; omega
  · show (V c (Pipeline.arrRef spec4 1)) (((cfg4.win 1).blk t).view.emb (ix2 k (y 1))) = (V c (Pipeline.arrRef spec4 1)) (ix2 k ((((cfg4.win 3).blk t).view.emb y) 1))
    refine congrArg (V c (Pipeline.arrRef spec4 1)) (funext fun a => Fin.ext ?_)
    match a with
    | ⟨0, _⟩ => show win4_1.index t (0 : Fin 2) * 16 + 1 * k.val = k.val; omega
    | ⟨1, _⟩ => show win4_1.index t (1 : Fin 2) * 8 + 1 * (y 1).val = win4_3.index t (1 : Fin 2) * 8 + 1 * (y 1).val; omega
  · show (V c (Pipeline.arrRef spec4 2)) (((cfg4.win 2).blk t).view.emb (ix2 (0 : Fin 1) (y 1))) = (V c (Pipeline.arrRef spec4 2)) (ix2 (0 : Fin 1) ((((cfg4.win 3).blk t).view.emb y) 1))
    refine congrArg (V c (Pipeline.arrRef spec4 2)) (funext fun a => Fin.ext ?_)
    match a with
    | ⟨0, _⟩ => show win4_2.index t (0 : Fin 2) * 1 + 1 * 0 = 0; omega
    | ⟨1, _⟩ => show win4_2.index t (1 : Fin 2) * 8 + 1 * (y 1).val = win4_3.index t (1 : Fin 2) * 8 + 1 * (y 1).val; omega

/-- An index of the output array is in point `t`'s block iff each coordinate is in the block's range on its axis. -/
theorem mem_blk (t : Fin cfg4.N) (i : S200000x8.Idx) :
    i ∈ ((cfg4.win 3).blk t).view.set ↔ ∀ a : Fin 2, win4_3.index t a * S8000x8.size a ≤ (i a).val ∧ (i a).val < win4_3.index t a * S8000x8.size a + S8000x8.size a := by
  show i ∈ ((View.whole main_v67).slice (win4_3.rect t)).set ↔ _
  rw [View.set_slice_whole, Rect.mem_set_unit]
  exact Iff.rfl

/-- Row r of the output lies in the block of the point whose row-block index is r / 8000. -/
theorem cover (i : S200000x8.Idx) : ∃ t : Fin cfg4.N, (cfg4.win 3).flush t = true ∧ i ∈ ((cfg4.win 3).blk t).view.set := by
  have hi0 : (i 0).val < 200000 := (i 0).isLt
  have hi1 : (i 1).val < 8 := (i 1).isLt
  obtain ⟨t, ht⟩ := idx_onto ⟨(i 0).val / 8000, by omega⟩
  have q0 : win4_3.index t (0 : Fin 2) = (i 0).val / 8000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 8000 ≤ (i 0).val ∧ (i 0).val < win4_3.index t (0 : Fin 2) * 8000 + 8000; omega
  | ⟨1, _⟩ => show win4_3.index t (1 : Fin 2) * 8 ≤ (i 1).val ∧ (i 1).val < win4_3.index t (1 : Fin 2) * 8 + 8; omega

/-- The output array after the region: `affine` of the three input arrays as the region found them. -/
theorem final (c : Dev nD) : (dat4 V c).arrAt 3 cfg4.N = (Cert.Gcn.affine (M := 200000) (K := 16) (N := 8) (V c (Pipeline.arrRef spec4 0)) (V c (Pipeline.arrRef spec4 1)) (V c (Pipeline.arrRef spec4 2))) :=
  (dat4 V c).arrAt_eq_of_cover 3 (Cert.Gcn.affine (M := 200000) (K := 16) (N := 8) (V c (Pipeline.arrRef spec4 0)) (V c (Pipeline.arrRef spec4 1)) (V c (Pipeline.arrRef spec4 2))) (fun t _ => flushed V c t) cover

end Cert.KernelIdeal.Region4

end
-- ==== Proof.Region5.lean ====
/-
  Region 5 of the idealized kernel: a combining stage.  The grid has 25 points; point t takes rows 8000·t … 8000·t + 7999
  of the neighbour sums [200000,8], of the node's own rows [200000,8] and of the one-column factor array [200000,1], the whole
  one-row bias [1,8], and writes the same rows of the [200000,8] output.  Its body is `layerOut` of the blocks, an entry of
  `layerOut` depends only on its own row, and the 25 row blocks tile the output: so whatever the buffers hold when the
  region is entered, the output array ends as `layerOut` of the four whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `layerOut` of the loaded blocks. -/
theorem pay_eq (x0 x1 : Vec Ideal S8000x8 .f32) (x2 : Vec Ideal S8000x1 .f32) (x3 : Vec Ideal S1x8 .f32) :
    k5_pay1 x0 x1 x2 x3 = Cert.Gcn.layerOut (M := 8000) (N := 8) x0 x1 x2 x3 := by
  unfold k5_pay1
  exact Cert.Gcn.layer_body _ _ _ _ _ x0 x1 x2 x3

/-- The printed index maps over the grid: the three row-blocked inputs move with the output, every other block index is 0. -/
theorem idx_facts : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) < 25 :=
  (by decide +kernel : ∀ t : Fin grid5.N, _)

/-- Every one of the 25 row blocks is some point's. -/
theorem idx_onto : ∀ q0 : Fin 25, ∃ t : Fin cfg5.N, win5_4.index t = ![q0.val, 0] :=
  (by decide +kernel : ∀ q0 : Fin 25, ∃ t : Fin grid5.N, win5_4.index t = ![q0.val, 0])

set_option maxHeartbeats 4000000 in
/-- What point `t` writes back is block `t` of `layerOut` of the whole arrays. -/
theorem flushed (c : Dev nD) (t : Fin cfg5.N) :
    (dat5 V c).flushed 4 t = ((cfg5.win 4).blk t).view.read (Elt Ideal) (Cert.Gcn.layerOut (M := 200000) (N := 8) (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S8000x8) hz, View.ld_unit_zero (S := S8000x1) hz, View.ld_unit_zero (S := S1x8) hz]
  rw [pay_eq]
  obtain ⟨e0, e1, e2, e3, e4, e5, e6, e7, e8, e9⟩ := idx_facts t
  funext y
  show Cert.Gcn.layerOut (M := 8000) (N := 8) (iblk5 V c 0 t) (iblk5 V c 1 t) (iblk5 V c 2 t) (iblk5 V c 3 t) y
    = Cert.Gcn.layerOut (M := 200000) (N := 8) (V c (Pipeline.arrRef spec5 0)) (V c (Pipeline.arrRef spec5 1)) (V c (Pipeline.arrRef spec5 2)) (V c (Pipeline.arrRef spec5 3)) (((cfg5.win 4).blk t).view.emb y)
  unfold Cert.Gcn.layerOut
  have hy0 : (y 0).val < 8000 := (y 0).isLt
  have hy1 : (y 1).val < 8 := (y 1).isLt
  refine congrArg Ideal.tanh (congrArg₂ (· + ·) (congrArg₂ (· + ·) ?_ (congrArg₂ (· * ·) ?_ ?_)) ?_)
  · show (V c (Pipeline.arrRef spec5 0)) (((cfg5.win 0).blk t).view.emb y) = (V c (Pipeline.arrRef spec5 0)) (((cfg5.win 4).blk t).view.emb y)
    refine congrArg (V c (Pipeline.arrRef spec5 0)) (funext fun a => Fin.ext ?_)
    match a with
    | ⟨0, _⟩ => show win5_0.index t (0 : Fin 2) * 8000 + 1 * (y 0).val = win5_4.index t (0 : Fin 2) * 8000 + 1 * (y 0).val; omega
    | ⟨1, _⟩ => show win5_0.index t (1 : Fin 2) * 8 + 1 * (y 1).val = win5_4.index t (1 : Fin 2) * 8 + 1 * (y 1).val; omega
  · show (V c (Pipeline.arrRef spec5 1)) (((cfg5.win 1).blk t).view.emb y) = (V c (Pipeline.arrRef spec5 1)) (((cfg5.win 4).blk t).view.emb y)
    refine congrArg (V c (Pipeline.arrRef spec5 1)) (funext fun a => Fin.ext ?_)
    match a with
    | ⟨0, _⟩ => show win5_1.index t (0 : Fin 2) * 8000 + 1 * (y 0).val = win5_4.index t (0 : Fin 2) * 8000 + 1 * (y 0).val; omega
    | ⟨1, _⟩ => show win5_1.index t (1 : Fin 2) * 8 + 1 * (y 1).val = win5_4.index t (1 : Fin 2) * 8 + 1 * (y 1).val; omega
  · show (V c (Pipeline.arrRef spec5 2)) (((cfg5.win 2).blk t).view.emb (ix2 (y 0) (0 : Fin 1))) = (V c (Pipeline.arrRef spec5 2)) (ix2 ((((cfg5.win 4).blk t).view.emb y) 0) (0 : Fin 1))
    refine congrArg (V c (Pipeline.arrRef spec5 2)) (funext fun a => Fin.ext ?_)
    match a with
    | ⟨0, _⟩ => show win5_2.index t (0 : Fin 2) * 8000 + 1 * (y 0).val = win5_4.index t (0 : Fin 2) * 8000 + 1 * (y 0).val; omega
    | ⟨1, _⟩ => show win5_2.index t (1 : Fin 2) * 1 + 1 * 0 = 0; omega
  · show (V c (Pipeline.arrRef spec5 3)) (((cfg5.win 3).blk t).view.emb (ix2 (0 : Fin 1) (y 1))) = (V c (Pipeline.arrRef spec5 3)) (ix2 (0 : Fin 1) ((((cfg5.win 4).blk t).view.emb y) 1))
    refine congrArg (V c (Pipeline.arrRef spec5 3)) (funext fun a => Fin.ext ?_)
    match a with
    | ⟨0, _⟩ => show win5_3.index t (0 : Fin 2) * 1 + 1 * 0 = 0; omega
    | ⟨1, _⟩ => show win5_3.index t (1 : Fin 2) * 8 + 1 * (y 1).val = win5_4.index t (1 : Fin 2) * 8 + 1 * (y 1).val; omega

/-- An index of the output array is in point `t`'s block iff each coordinate is in the block's range on its axis. -/
theorem mem_blk (t : Fin cfg5.N) (i : S200000x8.Idx) :
    i ∈ ((cfg5.win 4).blk t).view.set ↔ ∀ a : Fin 2, win5_4.index t a * S8000x8.size a ≤ (i a).val ∧ (i a).val < win5_4.index t a * S8000x8.size a + S8000x8.size a := by
  show i ∈ ((View.whole main_v83).slice (win5_4.rect t)).set ↔ _
  rw [View.set_slice_whole, Rect.mem_set_unit]
  exact Iff.rfl

/-- Row r of the output lies in the block of the point whose row-block index is r / 8000. -/
theorem cover (i : S200000x8.Idx) : ∃ t : Fin cfg5.N, (cfg5.win 4).flush t = true ∧ i ∈ ((cfg5.win 4).blk t).view.set := by
  have hi0 : (i 0).val < 200000 := (i 0).isLt
  have hi1 : (i 1).val < 8 := (i 1).isLt
  obtain ⟨t, ht⟩ := idx_onto ⟨(i 0).val / 8000, by omega⟩
  have q0 : win5_4.index t (0 : Fin 2) = (i 0).val / 8000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 8000 ≤ (i 0).val ∧ (i 0).val < win5_4.index t (0 : Fin 2) * 8000 + 8000; omega
  | ⟨1, _⟩ => show win5_4.index t (1 : Fin 2) * 8 ≤ (i 1).val ∧ (i 1).val < win5_4.index t (1 : Fin 2) * 8 + 8; omega

/-- The output array after the region: `layerOut` of the four input arrays as the region found them. -/
theorem final (c : Dev nD) : (dat5 V c).arrAt 4 cfg5.N = (Cert.Gcn.layerOut (M := 200000) (N := 8) (V c (Pipeline.arrRef spec5 0)) (V c (Pipeline.arrRef spec5 1)) (V c (Pipeline.arrRef spec5 2)) (V c (Pipeline.arrRef spec5 3))) :=
  (dat5 V c).arrAt_eq_of_cover 4 (Cert.Gcn.layerOut (M := 200000) (N := 8) (V c (Pipeline.arrRef spec5 0)) (V c (Pipeline.arrRef spec5 1)) (V c (Pipeline.arrRef spec5 2)) (V c (Pipeline.arrRef spec5 3))) (fun t _ => flushed V c t) cover

end Cert.KernelIdeal.Region5

end
-- ==== Proof.S3.lean ====
/-
  The idealized kernel's buffers through its third layer: a row of zeros, the third linear stage (the reference's third
  matrix product), the host's gather / scale / scatter-add of the edges (the reference's third neighbour sums), and the
  third combining stage (the reference's third hidden layer).  Buffers no operation writes in between are carried.
-/
import proofs.«130247_j46978352283765_1_alg».proof.Proof.S2
import proofs.«130247_j46978352283765_1_alg».proof.Proof.Region4
import proofs.«130247_j46978352283765_1_alg».proof.Proof.Region5
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg) (c : Dev nD)

/-! ### After the zero-row stretch -/

set_option maxHeartbeats 32000000 in
theorem w9_v66 : W9 m ρ c (Proc.devRef .tc main_v66) = shapeCast S1x8 (broadcastInDim S8 ![] bcast_S_S8 (constant (F := Ideal) S_ .f32 0x00000000#32)) shapeCasts_S8_S1x8 := by
  show StableHlo.after hostOps4 (W8 m ρ c) (Proc.devRef .tc main_v66) = _
  after_results
  rfl
theorem w9_v64 : W9 m ρ c (Proc.devRef .tc main_v64) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show W9 m ρ c (Proc.devRef .tc main_v64) = W8 m ρ c (Proc.devRef .tc main_v64) by keep_host hostOps4).trans (w8_v64 m ρ c)
theorem w9_v1 : W9 m ρ c (Proc.devRef .tc main_v1) = val_main_v1 (F := Ideal) (m ((c : Thread nD τ).loc main_arg1)) :=
  (show W9 m ρ c (Proc.devRef .tc main_v1) = W8 m ρ c (Proc.devRef .tc main_v1) by keep_host hostOps4).trans (w8_v1 m ρ c)
theorem w9_v3 : W9 m ρ c (Proc.devRef .tc main_v3) = val_main_v3 (F := Ideal) (m ((c : Thread nD τ).loc main_arg1)) :=
  (show W9 m ρ c (Proc.devRef .tc main_v3) = W8 m ρ c (Proc.devRef .tc main_v3) by keep_host hostOps4).trans (w8_v3 m ρ c)
theorem w9_v11 : W9 m ρ c (Proc.devRef .tc main_v11) = val_main_v40 (F := Ideal) (m ((c : Thread nD τ).loc main_arg1)) :=
  (show W9 m ρ c (Proc.devRef .tc main_v11) = W8 m ρ c (Proc.devRef .tc main_v11) by keep_host hostOps4).trans (w8_v11 m ρ c)
theorem w9_v26 : W9 m ρ c (Proc.devRef .tc main_v26) = val_main_v26 (F := Ideal) (m ((c : Thread nD τ).loc main_arg1)) :=
  (show W9 m ρ c (Proc.devRef .tc main_v26) = W8 m ρ c (Proc.devRef .tc main_v26) by keep_host hostOps4).trans (w8_v26 m ρ c)
theorem w9_arg6 : W9 m ρ c (Proc.devRef .tc main_arg6) = (m ((c : Thread nD τ).loc main_arg6)) :=
  (show W9 m ρ c (Proc.devRef .tc main_arg6) = W8 m ρ c (Proc.devRef .tc main_arg6) by keep_host hostOps4).trans (w8_arg6 m ρ c)
theorem w9_arg7 : W9 m ρ c (Proc.devRef .tc main_arg7) = (m ((c : Thread nD τ).loc main_arg7)) :=
  (show W9 m ρ c (Proc.devRef .tc main_arg7) = W8 m ρ c (Proc.devRef .tc main_arg7) by keep_host hostOps4).trans (w8_arg7 m ρ c)
theorem w9_arg8 : W9 m ρ c (Proc.devRef .tc main_arg8) = (m ((c : Thread nD τ).loc main_arg8)) :=
  (show W9 m ρ c (Proc.devRef .tc main_arg8) = W8 m ρ c (Proc.devRef .tc main_arg8) by keep_host hostOps4).trans (w8_arg8 m ρ c)
theorem w9_arg9 : W9 m ρ c (Proc.devRef .tc main_arg9) = (m ((c : Thread nD τ).loc main_arg9)) :=
  (show W9 m ρ c (Proc.devRef .tc main_arg9) = W8 m ρ c (Proc.devRef .tc main_arg9) by keep_host hostOps4).trans (w8_arg9 m ρ c)

/-! ### After region 4 -/

set_option maxHeartbeats 8000000 in
theorem w10_v67 : W10 m ρ c (Proc.devRef .tc main_v67) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 3).trans ((Region4.final (V9 m ρ) c).trans ?_)
  have e0 : V9 m ρ c (Pipeline.arrRef spec4 0) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := w9_v64 m ρ c
  have e1 : V9 m ρ c (Pipeline.arrRef spec4 1) = (m ((c : Thread nD τ).loc main_arg6)) := w9_arg6 m ρ c
  have e2 : V9 m ρ c (Pipeline.arrRef spec4 2) = shapeCast S1x8 (broadcastInDim S8 ![] bcast_S_S8 (constant (F := Ideal) S_ .f32 0x00000000#32)) shapeCasts_S8_S1x8 := w9_v66 m ρ c
  rw [e0, e1]
  exact Cert.ReferenceIdeal.Stage.lin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ (fun q => by rw [e2]; exact Cert.Gcn.zero_row_apply _ _ q)
theorem w10_v1 : W10 m ρ c (Proc.devRef .tc main_v1) = val_main_v1 (F := Ideal) (m ((c : Thread nD τ).loc main_arg1)) :=
  (W10_of_ne m ρ c main_v1 (by decide)).trans (w9_v1 m ρ c)
theorem w10_v3 : W10 m ρ c (Proc.devRef .tc main_v3) = val_main_v3 (F := Ideal) (m ((c : Thread nD τ).loc main_arg1)) :=
  (W10_of_ne m ρ c main_v3 (by decide)).trans (w9_v3 m ρ c)
theorem w10_v11 : W10 m ρ c (Proc.devRef .tc main_v11) = val_main_v40 (F := Ideal) (m ((c : Thread nD τ).loc main_arg1)) :=
  (W10_of_ne m ρ c main_v11 (by decide)).trans (w9_v11 m ρ c)
theorem w10_v26 : W10 m ρ c (Proc.devRef .tc main_v26) = val_main_v26 (F := Ideal) (m ((c : Thread nD τ).loc main_arg1)) :=
  (W10_of_ne m ρ c main_v26 (by decide)).trans (w9_v26 m ρ c)
theorem w10_arg7 : W10 m ρ c (Proc.devRef .tc main_arg7) = (m ((c : Thread nD τ).loc main_arg7)) :=
  (W10_of_ne m ρ c main_arg7 (by decide)).trans (w9_arg7 m ρ c)
theorem w10_arg8 : W10 m ρ c (Proc.devRef .tc main_arg8) = (m ((c : Thread nD τ).loc main_arg8)) :=
  (W10_of_ne m ρ c main_arg8 (by decide)).trans (w9_arg8 m ρ c)
theorem w10_arg9 : W10 m ρ c (Proc.devRef .tc main_arg9) = (m ((c : Thread nD τ).loc main_arg9)) :=
  (W10_of_ne m ρ c main_arg9 (by decide)).trans (w9_arg9 m ρ c)

/-! ### After the third gather / scatter stretch -/

set_option maxHeartbeats 32000000 in
theorem w11_v80 : W11 m ρ c (Proc.devRef .tc main_v80) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v80) = _
  after_results
  rw [w10_v3 m ρ c, w10_v67 m ρ c, w10_v1 m ρ c, w10_v26 m ρ c]
  rfl

set_option maxHeartbeats 32000000 in
theorem w11_v81 : W11 m ρ c (Proc.devRef .tc main_v81) = shapeCast S1x8 (m ((c : Thread nD τ).loc main_arg7)) shapeCasts_S8_S1x8 := by
  show StableHlo.after hostOps5 (W10 m ρ c) (Proc.devRef .tc main_v81) = _
  after_results
  rw [w10_arg7 m ρ c]
  rfl

set_option maxHeartbeats 32000000 in
theorem w11_v82 : W11 m ρ c (Proc.devRef .tc main_v82) = shapeCast S200000x1 (val_main_v116 (F := Ideal) (m ((c : Thread nD τ).loc main_arg1))) shapeCasts_S200000_S200000x1 := by
  show StableHlo.after hostOps5 (W10 m ρ c) (Proc.devRef .tc main_v82) = _
  after_results
  rw [w10_v11 m ρ c]
  rfl
theorem w11_v67 : W11 m ρ c (Proc.devRef .tc main_v67) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show W11 m ρ c (Proc.devRef .tc main_v67) = W10 m ρ c (Proc.devRef .tc main_v67) by keep_host hostOps5).trans (w10_v67 m ρ c)
theorem w11_arg8 : W11 m ρ c (Proc.devRef .tc main_arg8) = (m ((c : Thread nD τ).loc main_arg8)) :=
  (show W11 m ρ c (Proc.devRef .tc main_arg8) = W10 m ρ c (Proc.devRef .tc main_arg8) by keep_host hostOps5).trans (w10_arg8 m ρ c)
theorem w11_arg9 : W11 m ρ c (Proc.devRef .tc main_arg9) = (m ((c : Thread nD τ).loc main_arg9)) :=
  (show W11 m ρ c (Proc.devRef .tc main_arg9) = W10 m ρ c (Proc.devRef .tc main_arg9) by keep_host hostOps5).trans (w10_arg9 m ρ c)

/-! ### After region 5 -/

set_option maxHeartbeats 8000000 in
theorem w12_v83 : W12 m ρ c (Proc.devRef .tc main_v83) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 4).trans ((Region5.final (V11 m ρ) c).trans ?_)
  have e0 := w11_v80 m ρ c
  have e1 := w11_v67 m ρ c
  have e2 := w11_v82 m ρ c
  have e3 := w11_v81 m ρ c
  rw [show V11 m ρ c (Pipeline.arrRef spec5 0) = _ from e0, show V11 m ρ c (Pipeline.arrRef spec5 1) = _ from e1,
    show V11 m ρ c (Pipeline.arrRef spec5 2) = _ from e2, show V11 m ρ c (Pipeline.arrRef spec5 3) = _ from e3]
  exact Cert.ReferenceIdeal.Stage.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _
theorem w12_arg8 : W12 m ρ c (Proc.devRef .tc main_arg8) = (m ((c : Thread nD τ).loc main_arg8)) :=
  (W12_of_ne m ρ c main_arg8 (by decide)).trans (w11_arg8 m ρ c)
theorem w12_arg9 : W12 m ρ c (Proc.devRef .tc main_arg9) = (m ((c : Thread nD τ).loc main_arg9)) :=
  (W12_of_ne m ρ c main_arg9 (by decide)).trans (w11_arg9 m ρ c)

end Cert.KernelIdeal.Stages

end
-- ==== Proof.Region6.lean ====
/-
  Region 6 of the idealized kernel: a linear stage.  The grid has 25 points; point t takes rows 8000·t … 8000·t + 7999 of
  the [200000,8] input, the whole [8,4] matrix and the whole one-row [1,4] array, and writes the same rows of the
  [200000,4] output.  Its body is `affine` of the blocks, an entry of `affine` depends only on its own row of the input, and
  the 25 row blocks tile the output: so whatever the buffers hold when the region is entered, the output array ends
  as `affine` of the three whole arrays.
-/
import proofs.«130247_j46978352283765_1_alg».proof.Proof.Gen.KernelIdeal.Frame
import Idealize.ShloMosaic.Lib.Pipeline.Value
import Idealize.ShloMosaic.Lib.ValueIdx
import proofs.«130247_j46978352283765_1_alg».proof.Proof.LibAffineLayer

set_option maxRecDepth 16384

noncomputable section

open scoped BigOperators

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

-- the accelerator's buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's stored value is `affine` of the loaded blocks. -/
theorem pay_eq (x0 : Vec Ideal S8000x8 .f32) (x1 : Vec Ideal S8x4 .f32) (x2 : Vec Ideal S1x4 .f32) :
    k6_pay1 x0 x1 x2 = Cert.Gcn.affine (M := 8000) (K := 8) (N := 4) x0 x1 x2 := by
  unfold k6_pay1
  rw [shapeCast_self (s := S8000x8)]
  exact Cert.Gcn.affine_body _ .bf16 _ _ _ x0 x1 x2

/-- The printed index maps over the grid: the input's row block moves with the output's, every other block index is 0. -/
theorem idx_facts : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) < 25 :=
  (by decide +kernel : ∀ t : Fin grid6.N, _)

/-- Every one of the 25 row blocks is some point's. -/
theorem idx_onto : ∀ q0 : Fin 25, ∃ t : Fin cfg6.N, win6_3.index t = ![q0.val, 0] :=
  (by decide +kernel : ∀ q0 : Fin 25, ∃ t : Fin grid6.N, win6_3.index t = ![q0.val, 0])

set_option maxHeartbeats 4000000 in
/-- What point `t` writes back is block `t` of `affine` of the whole arrays. -/
theorem flushed (c : Dev nD) (t : Fin cfg6.N) :
    (dat6 V c).flushed 3 t = ((cfg6.win 3).blk t).view.read (Elt Ideal) (Cert.Gcn.affine (M := 200000) (K := 8) (N := 4) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S8000x8) hz, View.ld_unit_zero (S := S8x4) hz, View.ld_unit_zero (S := S1x4) hz]
  rw [pay_eq]
  obtain ⟨e0, e1, e2, e3, e4, e5, e6, e7⟩ := idx_facts t
  funext y
  show Cert.Gcn.affine (M := 8000) (K := 8) (N := 4) (iblk6 V c 0 t) (iblk6 V c 1 t) (iblk6 V c 2 t) y
    = Cert.Gcn.affine (M := 200000) (K := 8) (N := 4) (V c (Pipeline.arrRef spec6 0)) (V c (Pipeline.arrRef spec6 1)) (V c (Pipeline.arrRef spec6 2)) (((cfg6.win 3).blk t).view.emb y)
  unfold Cert.Gcn.affine
  have hy0 : (y 0).val < 8000 := (y 0).isLt
  have hy1 : (y 1).val < 4 := (y 1).isLt
  refine congrArg₂ (· + ·) (Finset.sum_congr rfl fun k _ => congrArg₂ (· * ·) ?_ ?_) ?_
  · show (V c (Pipeline.arrRef spec6 0)) (((cfg6.win 0).blk t).view.emb (ix2 (y 0) k)) = (V c (Pipeline.arrRef spec6 0)) (ix2 ((((cfg6.win 3).blk t).view.emb y) 0) k)
    refine congrArg (V c (Pipeline.arrRef spec6 0)) (funext fun a => Fin.ext ?_)
    match a with
    | ⟨0, _⟩ => show win6_0.index t (0 : Fin 2) * 8000 + 1 * (y 0).val = win6_3.index t (0 : Fin 2) * 8000 + 1 * (y 0).val; omega
    | ⟨1, _⟩ => show win6_0.index t (1 : Fin 2) * 8 + 1 * k.val = k.val; omega
  · show (V c (Pipeline.arrRef spec6 1)) (((cfg6.win 1).blk t).view.emb (ix2 k (y 1))) = (V c (Pipeline.arrRef spec6 1)) (ix2 k ((((cfg6.win 3).blk t).view.emb y) 1))
    refine congrArg (V c (Pipeline.arrRef spec6 1)) (funext fun a => Fin.ext ?_)
    match a with
    | ⟨0, _⟩ => show win6_1.index t (0 : Fin 2) * 8 + 1 * k.val = k.val; omega
    | ⟨1, _⟩ => show win6_1.index t (1 : Fin 2) * 4 + 1 * (y 1).val = win6_3.index t (1 : Fin 2) * 4 + 1 * (y 1).val; omega
  · show (V c (Pipeline.arrRef spec6 2)) (((cfg6.win 2).blk t).view.emb (ix2 (0 : Fin 1) (y 1))) = (V c (Pipeline.arrRef spec6 2)) (ix2 (0 : Fin 1) ((((cfg6.win 3).blk t).view.emb y) 1))
    refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 4 + 1 * (y 1).val = win6_3.index t (1 : Fin 2) * 4 + 1 * (y 1).val; omega

/-- An index of the output array is in point `t`'s block iff each coordinate is in the block's range on its axis. -/
theorem mem_blk (t : Fin cfg6.N) (i : S200000x4.Idx) :
    i ∈ ((cfg6.win 3).blk t).view.set ↔ ∀ a : Fin 2, win6_3.index t a * S8000x4.size a ≤ (i a).val ∧ (i a).val < win6_3.index t a * S8000x4.size a + S8000x4.size a := by
  show i ∈ ((View.whole main_v85).slice (win6_3.rect t)).set ↔ _
  rw [View.set_slice_whole, Rect.mem_set_unit]
  exact Iff.rfl

/-- Row r of the output lies in the block of the point whose row-block index is r / 8000. -/
theorem cover (i : S200000x4.Idx) : ∃ t : Fin cfg6.N, (cfg6.win 3).flush t = true ∧ i ∈ ((cfg6.win 3).blk t).view.set := by
  have hi0 : (i 0).val < 200000 := (i 0).isLt
  have hi1 : (i 1).val < 4 := (i 1).isLt
  obtain ⟨t, ht⟩ := idx_onto ⟨(i 0).val / 8000, by omega⟩
  have q0 : win6_3.index t (0 : Fin 2) = (i 0).val / 8000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 8000 ≤ (i 0).val ∧ (i 0).val < win6_3.index t (0 : Fin 2) * 8000 + 8000; omega
  | ⟨1, _⟩ => show win6_3.index t (1 : Fin 2) * 4 ≤ (i 1).val ∧ (i 1).val < win6_3.index t (1 : Fin 2) * 4 + 4; omega

/-- The output array after the region: `affine` of the three input arrays as the region found them. -/
theorem final (c : Dev nD) : (dat6 V c).arrAt 3 cfg6.N = (Cert.Gcn.affine (M := 200000) (K := 8) (N := 4) (V c (Pipeline.arrRef spec6 0)) (V c (Pipeline.arrRef spec6 1)) (V c (Pipeline.arrRef spec6 2))) :=
  (dat6 V c).arrAt_eq_of_cover 3 (Cert.Gcn.affine (M := 200000) (K := 8) (N := 4) (V c (Pipeline.arrRef spec6 0)) (V c (Pipeline.arrRef spec6 1)) (V c (Pipeline.arrRef spec6 2))) (fun t _ => flushed V c t) cover

end Cert.KernelIdeal.Region6

end
-- ==== Proof.S4.lean ====
/-
  The idealized kernel's result: the last bias vector as a row, and the last linear stage — the third hidden layer times
  the last matrix plus that row — which is the reference's result array.
-/
import proofs.«130247_j46978352283765_1_alg».proof.Proof.S3
import proofs.«130247_j46978352283765_1_alg».proof.Proof.Region6
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg) (c : Dev nD)

set_option maxHeartbeats 32000000 in
theorem w13_v84 : W13 m ρ c (Proc.devRef .tc main_v84) = shapeCast S1x4 (m ((c : Thread nD τ).loc main_arg9)) shapeCasts_S4_S1x4 := by
  show StableHlo.after hostOps6 (W12 m ρ c) (Proc.devRef .tc main_v84) = _
  after_results
  rw [w12_arg9 m ρ c]
  rfl
theorem w13_v83 : W13 m ρ c (Proc.devRef .tc main_v83) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (show W13 m ρ c (Proc.devRef .tc main_v83) = W12 m ρ c (Proc.devRef .tc main_v83) by keep_host hostOps6).trans (w12_v83 m ρ c)
theorem w13_arg8 : W13 m ρ c (Proc.devRef .tc main_arg8) = (m ((c : Thread nD τ).loc main_arg8)) :=
  (show W13 m ρ c (Proc.devRef .tc main_arg8) = W12 m ρ c (Proc.devRef .tc main_arg8) by keep_host hostOps6).trans (w12_arg8 m ρ c)

set_option maxHeartbeats 8000000 in
/-- The result array at the last boundary is the reference's result, as a function of the ten launch arguments. -/
theorem w14_v85 : W14 m ρ c (Proc.devRef .tc main_v85) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 3).trans ((Region6.final (V13 m ρ) c).trans ?_)
  have e0 := w13_v83 m ρ c
  have e1 := w13_arg8 m ρ c
  have e2 := w13_v84 m ρ c
  rw [show V13 m ρ c (Pipeline.arrRef spec6 0) = _ from e0, show V13 m ρ c (Pipeline.arrRef spec6 1) = _ from e1,
    show V13 m ρ c (Pipeline.arrRef spec6 2) = _ from e2]
  exact Cert.ReferenceIdeal.Stage.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _

end Cert.KernelIdeal.Stages

end
-- ==== Proof.lean ====
/-
  A three-layer graph convolution network with a linear read-out, over a graph given as an edge list: the idealized
  kernel against the idealized reference, on the extended reals.

  Both programs compute, from the edge list, each node's degree d (edges arriving, plus one), the node factor d⁻¹ (as
  d^(-1/2) squared) and the edge factor d^(-1/2)[source] · d^(-1/2)[destination]; then three times
      h ← tanh ((Σ over edges into the node of (h·W)[source] · edge factor) + (h·W)[node] · node factor + b),
  and finally h·Wc + bc.  The kernel computes each product h·W in an accelerator region, 8000 rows at a time, with both
  operands rounded to a narrower float format (the identity on the extended reals) and a row of zeros added (adding
  nothing); it computes each tanh stage in another region, 8000 rows at a time; the gather of rows by source node, the
  scaling by the edge factor and the scatter-add by destination node stay host operations — the very operations the
  reference runs, on the same operands.  The reference recomputes the node and edge factors in each layer; they are the
  same terms.  So, region by region and stretch by stretch, every buffer of the kernel holds the reference's stage of
  the same meaning, and the two result arrays are one function of the ten arguments.  No law beyond x + 0 = x is used,
  so the finiteness of the inputs is never opened.

  Nothing is rewritten by the idealization (the claim that the idealized kernel is the kernel's sanctioned idealization
  is `True`); the two kernels' frames are the generated ones, the reference's frame is its generated run with the
  result dropped.
-/
import proofs.«130247_j46978352283765_1_alg».proof.Defs
import proofs.«130247_j46978352283765_1_alg».proof.Proof.Gen.Kernel
import proofs.«130247_j46978352283765_1_alg».proof.Proof.Gen.Kernel.Skeleton
import proofs.«130247_j46978352283765_1_alg».proof.Proof.Gen.Kernel.Launch
import proofs.«130247_j46978352283765_1_alg».proof.Proof.Gen.Kernel.Points
import proofs.«130247_j46978352283765_1_alg».proof.Proof.Gen.Kernel.Frame
import proofs.«130247_j46978352283765_1_alg».proof.Proof.Gen.KernelIdeal
import proofs.«130247_j46978352283765_1_alg».proof.Proof.Gen.KernelIdeal.Skeleton
import proofs.«130247_j46978352283765_1_alg».proof.Proof.Gen.KernelIdeal.Launch
import proofs.«130247_j46978352283765_1_alg».proof.Proof.Gen.KernelIdeal.Points
import proofs.«130247_j46978352283765_1_alg».proof.Proof.Gen.KernelIdeal.Frame
import proofs.«130247_j46978352283765_1_alg».proof.Proof.Gen.ReferenceIdeal
import proofs.«130247_j46978352283765_1_alg».proof.Proof.Gen.Pre_finite_inputs
import proofs.«130247_j46978352283765_1_alg».proof.Proof.Gen.ReferenceIdeal.Run
import proofs.«130247_j46978352283765_1_alg».proof.Proof.Gen.ReferenceIdeal.Read
import proofs.«130247_j46978352283765_1_alg».proof.Proof.KernelRun
import proofs.«130247_j46978352283765_1_alg».proof.Proof.S4
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's last stage as a function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.w14_v85 m ρ c), (h c).2⟩) (Cert.KernelIdeal.Named.run m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v128_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
